-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S_ : Shape := ⟨0, ![]⟩

class Facts : Prop where
  bcast_S_S32768x896 : S_.BroadcastsInDim S32768x896 (![] : Fin 0 → Fin S32768x896.rank)
  reducesTo_S32768x896_S_d0_1 : S32768x896.ReducesTo [0, 1] S_
  h_S_ : 0 < S_.numel
  bcast_S_S2688x896 : S_.BroadcastsInDim S2688x896 (![] : Fin 0 → Fin S2688x896.rank)
  reducesTo_S2688x896_S_d0_1 : S2688x896.ReducesTo [0, 1] S_
  bcast_S_S2688 : S_.BroadcastsInDim S2688 (![] : Fin 0 → Fin S2688.rank)
  reducesTo_S2688_S_d0 : S2688.ReducesTo [0] S_
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_
  bcast_S_S896x1792 : S_.BroadcastsInDim S896x1792 (![] : Fin 0 → Fin S896x1792.rank)
  reducesTo_S896x1792_S_d0_1 : S896x1792.ReducesTo [0, 1] S_

variable [Facts]

def fn_part3 {F : FTy → Type} [FloatOps F] (main_arg11 : FVec F S896 .f32) (main_v48 : IVec S_ 1) (main_v49 : FVec F S896 .f32) (main_v50 : FVec F S896 .f32) : IVec S_ 1 :=
  let main_v51 : IVec S896 1 := cmpf .olt main_v49 main_v50
  let main_c_19 : IVec S_ 1 := constantI S_ 1 1#1
  let main_v52 : IVec S_ 1 := (fun x v => Host.reduce IntOp.andi x v reducesTo_S896_S_d0 h_S_) main_v51 main_c_19
  let main_v53 : IVec S_ 1 := andi main_v48 main_v52
  let main_v54 : FVec F S896 .f32 := Host.absf main_arg11
  let main_cst_20 : FVec F S_ .f32 := constant S_ .f32 0x7F800000#32
  let main_v55 : FVec F S896 .f32 := broadcastInDim S896 ![] bcast_S_S896 main_cst_20
  let main_v56 : IVec S896 1 := cmpf .olt main_v54 main_v55
  let main_c_21 : IVec S_ 1 := constantI S_ 1 1#1
  let main_v57 : IVec S_ 1 := (fun x v => Host.reduce IntOp.andi x v reducesTo_S896_S_d0 h_S_) main_v56 main_c_21
  let main_v58 : IVec S_ 1 := andi main_v53 main_v57
  main_v58

def fn_part2 {F : FTy → Type} [FloatOps F] (main_arg7 : FVec F S896 .f32) (main_arg8 : FVec F S896x896 .f32) (main_arg9 : FVec F S896 .f32) (main_arg10 : FVec F S896 .f32) (main_arg11 : FVec F S896 .f32) (main_v33 : IVec S_ 1) : IVec S_ 1 :=
  let main_v34 : FVec F S896 .f32 := Host.absf main_arg7
  let main_cst_12 : FVec F S_ .f32 := constant S_ .f32 0x7F800000#32
  let main_v35 : FVec F S896 .f32 := broadcastInDim S896 ![] bcast_S_S896 main_cst_12
  let main_v36 : IVec S896 1 := cmpf .olt main_v34 main_v35
  let main_c_13 : IVec S_ 1 := constantI S_ 1 1#1
  let main_v37 : IVec S_ 1 := (fun x v => Host.reduce IntOp.andi x v reducesTo_S896_S_d0 h_S_) main_v36 main_c_13
  let main_v38 : IVec S_ 1 := andi main_v33 main_v37
  let main_v39 : FVec F S896x896 .f32 := Host.absf main_arg8
  let main_cst_14 : FVec F S_ .f32 := constant S_ .f32 0x7F800000#32
  let main_v40 : FVec F S896x896 .f32 := broadcastInDim S896x896 ![] bcast_S_S896x896 main_cst_14
  let main_v41 : IVec S896x896 1 := cmpf .olt main_v39 main_v40
  let main_c_15 : IVec S_ 1 := constantI S_ 1 1#1
  let main_v42 : IVec S_ 1 := (fun x v => Host.reduce IntOp.andi x v reducesTo_S896x896_S_d0_1 h_S_) main_v41 main_c_15
  let main_v43 : IVec S_ 1 := andi main_v38 main_v42
  let main_v44 : FVec F S896 .f32 := Host.absf main_arg9
  let main_cst_16 : FVec F S_ .f32 := constant S_ .f32 0x7F800000#32
  let main_v45 : FVec F S896 .f32 := broadcastInDim S896 ![] bcast_S_S896 main_cst_16
  let main_v46 : IVec S896 1 := cmpf .olt main_v44 main_v45
  let main_c_17 : IVec S_ 1 := constantI S_ 1 1#1
  let main_v47 : IVec S_ 1 := (fun x v => Host.reduce IntOp.andi x v reducesTo_S896_S_d0 h_S_) main_v46 main_c_17
  let main_v48 : IVec S_ 1 := andi main_v43 main_v47
  let main_v49 : FVec F S896 .f32 := Host.absf main_arg10
  let main_cst_18 : FVec F S_ .f32 := constant S_ .f32 0x7F800000#32
  let main_v50 : FVec F S896 .f32 := broadcastInDim S896 ![] bcast_S_S896 main_cst_18
  fn_part3 (F := F) main_arg11 main_v48 main_v49 main_v50

def fn_part1 {F : FTy → Type} [FloatOps F] (main_arg4 : FVec F S896x896 .f32) (main_arg5 : FVec F S896 .f32) (main_arg6 : FVec F S896x1792 .f32) (main_arg7 : FVec F S896 .f32) (main_arg8 : FVec F S896x896 .f32) (main_arg9 : FVec F S896 .f32) (main_arg10 : FVec F S896 .f32) (main_arg11 : FVec F S896 .f32) (main_v13 : IVec S_ 1) (main_v16 : IVec S2688 1) : IVec S_ 1 :=
  let main_c_5 : IVec S_ 1 := constantI S_ 1 1#1
  let main_v17 : IVec S_ 1 := (fun x v => Host.reduce IntOp.andi x v reducesTo_S2688_S_d0 h_S_) main_v16 main_c_5
  let main_v18 : IVec S_ 1 := andi main_v13 main_v17
  let main_v19 : FVec F S896x896 .f32 := Host.absf main_arg4
  let main_cst_6 : FVec F S_ .f32 := constant S_ .f32 0x7F800000#32
  let main_v20 : FVec F S896x896 .f32 := broadcastInDim S896x896 ![] bcast_S_S896x896 main_cst_6
  let main_v21 : IVec S896x896 1 := cmpf .olt main_v19 main_v20
  let main_c_7 : IVec S_ 1 := constantI S_ 1 1#1
  let main_v22 : IVec S_ 1 := (fun x v => Host.reduce IntOp.andi x v reducesTo_S896x896_S_d0_1 h_S_) main_v21 main_c_7
  let main_v23 : IVec S_ 1 := andi main_v18 main_v22
  let main_v24 : FVec F S896 .f32 := Host.absf main_arg5
  let main_cst_8 : FVec F S_ .f32 := constant S_ .f32 0x7F800000#32
  let main_v25 : FVec F S896 .f32 := broadcastInDim S896 ![] bcast_S_S896 main_cst_8
  let main_v26 : IVec S896 1 := cmpf .olt main_v24 main_v25
  let main_c_9 : IVec S_ 1 := constantI S_ 1 1#1
  let main_v27 : IVec S_ 1 := (fun x v => Host.reduce IntOp.andi x v reducesTo_S896_S_d0 h_S_) main_v26 main_c_9
  let main_v28 : IVec S_ 1 := andi main_v23 main_v27
  let main_v29 : FVec F S896x1792 .f32 := Host.absf main_arg6
  let main_cst_10 : FVec F S_ .f32 := constant S_ .f32 0x7F800000#32
  let main_v30 : FVec F S896x1792 .f32 := broadcastInDim S896x1792 ![] bcast_S_S896x1792 main_cst_10
  let main_v31 : IVec S896x1792 1 := cmpf .olt main_v29 main_v30
  let main_c_11 : IVec S_ 1 := constantI S_ 1 1#1
  let main_v32 : IVec S_ 1 := (fun x v => Host.reduce IntOp.andi x v reducesTo_S896x1792_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x896 .f32) (main_arg1 : FVec F S32768x896 .f32) (main_arg2 : FVec F S2688x896 .f32) (main_arg3 : FVec F S2688 .f32) (main_arg4 : FVec F S896x896 .f32) (main_arg5 : FVec F S896 .f32) (main_arg6 : FVec F S896x1792 .f32) (main_arg7 : FVec F S896 .f32) (main_arg8 : FVec F S896x896 .f32) (main_arg9 : FVec F S896 .f32) (main_arg10 : FVec F S896 .f32) (main_arg11 : FVec F S896 .f32) : IVec S_ 1 :=
  let main_v0 : FVec F S32768x896 .f32 := Host.absf main_arg0
  let main_cst : FVec F S_ .f32 := constant S_ .f32 0x7F800000#32
  let main_v1 : FVec F S32768x896 .f32 := broadcastInDim S32768x896 ![] bcast_S_S32768x896 main_cst
  let main_v2 : IVec S32768x896 1 := cmpf .olt main_v0 main_v1
  let main_c : IVec S_ 1 := constantI S_ 1 1#1
  let main_v3 : IVec S_ 1 := (fun x v => Host.reduce IntOp.andi x v reducesTo_S32768x896_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S2688x896 .f32 := Host.absf main_arg2
  let main_cst_2 : FVec F S_ .f32 := constant S_ .f32 0x7F800000#32
  let main_v10 : FVec F S2688x896 .f32 := broadcastInDim S2688x896 ![] bcast_S_S2688x896 main_cst_2
  let main_v11 : IVec S2688x896 1 := cmpf .olt main_v9 main_v10
  let main_c_3 : IVec S_ 1 := constantI S_ 1 1#1
  let main_v12 : IVec S_ 1 := (fun x v => Host.reduce IntOp.andi x v reducesTo_S2688x896_S_d0_1 h_S_) main_v11 main_c_3
  let main_v13 : IVec S_ 1 := andi main_v8 main_v12
  let main_v14 : FVec F S2688 .f32 := Host.absf main_arg3
  let main_cst_4 : FVec F S_ .f32 := constant S_ .f32 0x7F800000#32
  let main_v15 : FVec F S2688 .f32 := broadcastInDim S2688 ![] bcast_S_S2688 main_cst_4
  let main_v16 : IVec S2688 1 := cmpf .olt main_v14 main_v15
  fn_part1 (F := F) main_arg4 main_arg5 main_arg6 main_arg7 main_arg8 main_arg9 main_arg10 main_arg11 main_v13 main_v16
-- ==== Kernel.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S1x896 : Shape := ⟨2, ![1, 896]⟩
abbrev S1792x896 : Shape := ⟨2, ![1792, 896]⟩
abbrev S512x896 : Shape := ⟨2, ![512, 896]⟩
abbrev S512x1792 : Shape := ⟨2, ![512, 1792]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S32768x896, .f32⟩
  | .hbm, ⟨1, _⟩ => ⟨S32768x896, .f32⟩
  | .hbm, ⟨2, _⟩ => ⟨S2688x896, .f32⟩
  | .hbm, ⟨3, _⟩ => ⟨S2688, .f32⟩
  | .hbm, ⟨4, _⟩ => ⟨S896x896, .f32⟩
  | .hbm, ⟨5, _⟩ => ⟨S896, .f32⟩
  | .hbm, ⟨6, _⟩ => ⟨S896x1792, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S896, .f32⟩
  | .hbm, ⟨11, _⟩ => ⟨S896, .f32⟩
  | .hbm, ⟨12, _⟩ => ⟨S896x896, .f32⟩
  | .hbm, ⟨13, _⟩ => ⟨S896x896, .f32⟩
  | .hbm, ⟨14, _⟩ => ⟨S896x896, .bf16⟩
  | .hbm, ⟨15, _⟩ => ⟨S896, .f32⟩
  | .hbm, ⟨16, _⟩ => ⟨S1x896, .f32⟩
  | .hbm, ⟨17, _⟩ => ⟨S896x896, .f32⟩
  | .hbm, ⟨18, _⟩ => ⟨S896x896, .bf16⟩
  | .hbm, ⟨19, _⟩ => ⟨S1x896, .f32⟩
  | .hbm, ⟨20, _⟩ => ⟨S1792x896, .f32⟩
  | .hbm, ⟨21, _⟩ => ⟨S1792x896, .bf16⟩
  | .hbm, ⟨22, _⟩ => ⟨S1x896, .f32⟩
  | .hbm, ⟨23, _⟩ => ⟨S896x896, .f32⟩
  | .hbm, ⟨24, _⟩ => ⟨S896x896, .bf16⟩
  | .hbm, ⟨25, _⟩ => ⟨S1x896, .f32⟩
  | .hbm, ⟨26, _⟩ => ⟨S1x896, .f32⟩
  | .hbm, ⟨27, _⟩ => ⟨S1x896, .f32⟩
  | .hbm, ⟨28, _⟩ => ⟨S32768x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S896x896, .bf16⟩
  | .local _ .vmem, ⟨5, _⟩ => ⟨S1x896, .f32⟩
  | .local _ .vmem, ⟨6, _⟩ => ⟨S896x896, .bf16⟩
  | .local _ .vmem, ⟨7, _⟩ => ⟨S1x896, .f32⟩
  | .local _ .vmem, ⟨8, _⟩ => ⟨S1792x896, .bf16⟩
  | .local _ .vmem, ⟨9, _⟩ => ⟨S1x896, .f32⟩
  | .local _ .vmem, ⟨10, _⟩ => ⟨S896x896, .bf16⟩
  | .local _ .vmem, ⟨11, _⟩ => ⟨S1x896, .f32⟩
  | .local _ .vmem, ⟨12, _⟩ => ⟨S1x896, .f32⟩
  | .local _ .vmem, ⟨13, _⟩ => ⟨S1x896, .f32⟩
  | .local _ .vmem, ⟨14, _⟩ => ⟨S512x896, .f32⟩
  | .local _ .vmem, ⟨15, _⟩ => ⟨S512x896, .f32⟩
  | _, _ => ⟨S32768x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S896x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x896 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2688x896_S896x896_1792_0 : S2688x896.Slices ![1792, 0] S896x896
  transposes_S896x896_S896x896_1_0 : S896x896.Transposes [1, 0] S896x896
  bitsLt_bf16_f32 : FTy.bits .bf16 < FTy.bits .f32
  slices_S2688_S896_1792 : S2688.Slices ![1792] S896
  shapeCasts_S896_S1x896 : S896.ShapeCasts S1x896
  transposes_S896x1792_S1792x896_1_0 : S896x1792.Transposes [1, 0] S1792x896
  inb_S512x896_S512x896_0_0 : ∀ a, (![0, 0] : Fin 2 → Nat) a + S512x896.size a ≤ S512x896.size a
  h_S512x896 : 0 < S512x896.numel
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S512x896 : S1x896.Broadcasts S512x896
  concatenates_S512x896_S512x896_S512x1792_d1 : Shape.Concatenates [S512x896, S512x896] S512x1792 1
  inb_S1792x896_S1792x896_0_0 : ∀ a, (![0, 0] : Fin 2 → Nat) a + S1792x896.size a ≤ S1792x896.size a
  h_S1792x896 : 0 < S1792x896.numel
  shapeCasts_S1792x896_S1792x896 : S1792x896.ShapeCasts S1792x896
  reduces_S512x896_S512 : S512x896.Reduces [1] S512
  shapeCasts_S512_S512x1 : S512.ShapeCasts S512x1
  broadcasts_S512x1_S512x896 : S512x1.Broadcasts S512x896
  dot_S512x896_S896x896_S512x896_1_0_0_1_n_n_wf : DotDims.WF S512x896 S896x896 S512x896 [1] [0] [0] [1] [] []
  dot_S512x1792_S1792x896_S512x896_1_0_0_1_n_n_wf : DotDims.WF S512x1792 S1792x896 S512x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S32768x896.size a
  hwx0_0 : ∀ i : grid0.Coords, EltTy.bits .f32 = 32 ∨ (Rect.block (s := S32768x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x896.size a ≤ S32768x896.size a
  hwx0_1 : ∀ i : grid0.Coords, EltTy.bits .f32 = 32 ∨ (Rect.block (s := S32768x896) S512x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x896.size a ≤ S896x896.size a
  hwx0_2 : ∀ i : grid0.Coords, EltTy.bits .bf16 = 32 ∨ (Rect.block (s := S896x896) S896x896.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x896.size a ≤ S1x896.size a
  hwx0_3 : ∀ i : grid0.Coords, EltTy.bits .f32 = 32 ∨ (Rect.block (s := S1x896) S1x896.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S896x896.size a ≤ S896x896.size a
  hwx0_4 : ∀ i : grid0.Coords, EltTy.bits .bf16 = 32 ∨ (Rect.block (s := S896x896) S896x896.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x896.size a ≤ S1x896.size a
  hwx0_5 : ∀ i : grid0.Coords, EltTy.bits .f32 = 32 ∨ (Rect.block (s := S1x896) S1x896.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1792x896.size a ≤ S1792x896.size a
  hwx0_6 : ∀ i : grid0.Coords, EltTy.bits .bf16 = 32 ∨ (Rect.block (s := S1792x896) S1792x896.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x896.size a ≤ S1x896.size a
  hwx0_7 : ∀ i : grid0.Coords, EltTy.bits .f32 = 32 ∨ (Rect.block (s := S1x896) S1x896.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896x896.size a ≤ S896x896.size a
  hwx0_8 : ∀ i : grid0.Coords, EltTy.bits .bf16 = 32 ∨ (Rect.block (s := S896x896) S896x896.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x896.size a ≤ S1x896.size a
  hwx0_9 : ∀ i : grid0.Coords, EltTy.bits .f32 = 32 ∨ (Rect.block (s := S1x896) S1x896.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x896.size a ≤ S1x896.size a
  hwx0_10 : ∀ i : grid0.Coords, EltTy.bits .f32 = 32 ∨ (Rect.block (s := S1x896) S1x896.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x896.size a ≤ S1x896.size a
  hwx0_11 : ∀ i : grid0.Coords, EltTy.bits .f32 = 32 ∨ (Rect.block (s := S1x896) S1x896.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x896.size a ≤ S32768x896.size a
  hwx0_12 : ∀ i : grid0.Coords, EltTy.bits .f32 = 32 ∨ (Rect.block (s := S32768x896) S512x896.size (cc0_transform_12 i) (hinb0_12 i)).WholeWords (EltTy.packing .f32)

variable [Facts₀]

def dot_S512x896_S896x896_S512x896_1_0_0_1_n_n : DotDims S512x896 S896x896 S512x896 where
  lhsContracting := [1]
  rhsContracting := [0]
  lhsNonContracting := [0]
  rhsNonContracting := [1]
  lhsBatch := []
  rhsBatch := []
  wf := dot_S512x896_S896x896_S512x896_1_0_0_1_n_n_wf
def dot_S512x1792_S1792x896_S512x896_1_0_0_1_n_n : DotDims S512x1792 S1792x896 S512x896 where
  lhsContracting := [1]
  rhsContracting := [0]
  lhsNonContracting := [0]
  rhsNonContracting := [1]
  lhsBatch := []
  rhsBatch := []
  wf := dot_S512x1792_S1792x896_S512x896_1_0_0_1_n_n_wf

abbrev win0_0 : Pipeline.Window sig grid0 :=
  Pipeline.Window.ofSpec (Memref.whole main_arg0) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S896x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x896.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S896x896.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1792x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S896x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x896.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x896.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x896.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S512x896.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S1x896 : Shape := ⟨2, ![1, 896]⟩
abbrev S32768x8x112 : Shape := ⟨3, ![32768, 8, 112]⟩
abbrev S_ : Shape := ⟨0, ![]⟩
abbrev S32768x8 : Shape := ⟨2, ![32768, 8]⟩
abbrev S32768x8x1 : Shape := ⟨3, ![32768, 8, 1]⟩
abbrev S32768x1792 : Shape := ⟨2, ![32768, 1792]⟩
abbrev S1792x896 : Shape := ⟨2, ![1792, 896]⟩
abbrev S32768 : Shape := ⟨1, ![32768]⟩
abbrev S32768x1 : Shape := ⟨2, ![32768, 1]⟩

abbrev nBuf : Space → Nat
  | .hbm => 114
  | .vmem => 0
  | .smem => 0
  | _ => 0

abbrev bufTy : (tb : Table) → Fin (tcTables nBuf tb) → BufTy
  | .hbm, ⟨0, _⟩ => ⟨S32768x896, .f32⟩
  | .hbm, ⟨1, _⟩ => ⟨S32768x896, .f32⟩
  | .hbm, ⟨2, _⟩ => ⟨S2688x896, .f32⟩
  | .hbm, ⟨3, _⟩ => ⟨S2688, .f32⟩
  | .hbm, ⟨4, _⟩ => ⟨S896x896, .f32⟩
  | .hbm, ⟨5, _⟩ => ⟨S896, .f32⟩
  | .hbm, ⟨6, _⟩ => ⟨S896x1792, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S896, .f32⟩
  | .hbm, ⟨11, _⟩ => ⟨S896, .f32⟩
  | .hbm, ⟨12, _⟩ => ⟨S896x896, .f32⟩
  | .hbm, ⟨13, _⟩ => ⟨S896x896, .f32⟩
  | .hbm, ⟨14, _⟩ => ⟨S32768x896, .f32⟩
  | .hbm, ⟨15, _⟩ => ⟨S896, .f32⟩
  | .hbm, ⟨16, _⟩ => ⟨S1x896, .f32⟩
  | .hbm, ⟨17, _⟩ => ⟨S32768x896, .f32⟩
  | .hbm, ⟨18, _⟩ => ⟨S32768x896, .f32⟩
  | .hbm, ⟨19, _⟩ => ⟨S896x896, .f32⟩
  | .hbm, ⟨20, _⟩ => ⟨S896x896, .f32⟩
  | .hbm, ⟨21, _⟩ => ⟨S32768x896, .f32⟩
  | .hbm, ⟨22, _⟩ => ⟨S896, .f32⟩
  | .hbm, ⟨23, _⟩ => ⟨S1x896, .f32⟩
  | .hbm, ⟨24, _⟩ => ⟨S32768x896, .f32⟩
  | .hbm, ⟨25, _⟩ => ⟨S32768x896, .f32⟩
  | .hbm, ⟨26, _⟩ => ⟨S896x896, .f32⟩
  | .hbm, ⟨27, _⟩ => ⟨S896x896, .f32⟩
  | .hbm, ⟨28, _⟩ => ⟨S32768x896, .f32⟩
  | .hbm, ⟨29, _⟩ => ⟨S896, .f32⟩
  | .hbm, ⟨30, _⟩ => ⟨S1x896, .f32⟩
  | .hbm, ⟨31, _⟩ => ⟨S32768x896, .f32⟩
  | .hbm, ⟨32, _⟩ => ⟨S32768x896, .f32⟩
  | .hbm, ⟨33, _⟩ => ⟨S32768x8x112, .f32⟩
  | .hbm, ⟨34, _⟩ => ⟨S32768x8x112, .f32⟩
  | .hbm, ⟨35, _⟩ => ⟨S32768x8x112, .f32⟩
  | .hbm, ⟨36, _⟩ => ⟨S32768x8x112, .f32⟩
  | .hbm, ⟨37, _⟩ => ⟨S_, .f32⟩
  | .hbm, ⟨38, _⟩ => ⟨S32768x8, .f32⟩
  | .hbm, ⟨39, _⟩ => ⟨S32768x8x1, .f32⟩
  | .hbm, ⟨40, _⟩ => ⟨S_, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S_, .f32⟩
  | .hbm, ⟨45, _⟩ => ⟨S32768x8, .f32⟩
  | .hbm, ⟨46, _⟩ => ⟨S_, .f32⟩
  | .hbm, ⟨47, _⟩ => ⟨S32768x8, .f32⟩
  | .hbm, ⟨48, _⟩ => ⟨S32768x8, .f32⟩
  | .hbm, ⟨49, _⟩ => ⟨S32768x8x1, .f32⟩
  | .hbm, ⟨50, _⟩ => ⟨S32768x8x1, .f32⟩
  | .hbm, ⟨51, _⟩ => ⟨S32768x8x1, .f32⟩
  | .hbm, ⟨52, _⟩ => ⟨S_, .f32⟩
  | .hbm, ⟨53, _⟩ => ⟨S32768x8, .f32⟩
  | .hbm, ⟨54, _⟩ => ⟨S32768x8x1, .f32⟩
  | .hbm, ⟨55, _⟩ => ⟨S32768x8x1, .f32⟩
  | .hbm, ⟨56, _⟩ => ⟨S32768x8x112, .f32⟩
  | .hbm, ⟨57, _⟩ => ⟨S32768x8x112, .f32⟩
  | .hbm, ⟨58, _⟩ => ⟨S32768x896, .f32⟩
  | .hbm, ⟨59, _⟩ => ⟨S896x896, .f32⟩
  | .hbm, ⟨60, _⟩ => ⟨S32768x896, .f32⟩
  | .hbm, ⟨61, _⟩ => ⟨S1x896, .f32⟩
  | .hbm, ⟨62, _⟩ => ⟨S32768x896, .f32⟩
  | .hbm, ⟨63, _⟩ => ⟨S32768x896, .f32⟩
  | .hbm, ⟨64, _⟩ => ⟨S32768x1792, .f32⟩
  | .hbm, ⟨65, _⟩ => ⟨S1792x896, .f32⟩
  | .hbm, ⟨66, _⟩ => ⟨S32768x896, .f32⟩
  | .hbm, ⟨67, _⟩ => ⟨S1x896, .f32⟩
  | .hbm, ⟨68, _⟩ => ⟨S32768x896, .f32⟩
  | .hbm, ⟨69, _⟩ => ⟨S32768x896, .f32⟩
  | .hbm, ⟨70, _⟩ => ⟨S32768x896, .f32⟩
  | .hbm, ⟨71, _⟩ => ⟨S32768x896, .f32⟩
  | .hbm, ⟨72, _⟩ => ⟨S_, .f32⟩
  | .hbm, ⟨73, _⟩ => ⟨S32768x896, .f32⟩
  | .hbm, ⟨74, _⟩ => ⟨S32768x896, .f32⟩
  | .hbm, ⟨75, _⟩ => ⟨S_, .f32⟩
  | .hbm, ⟨76, _⟩ => ⟨S32768x896, .f32⟩
  | .hbm, ⟨77, _⟩ => ⟨S32768x896, .f32⟩
  | .hbm, ⟨78, _⟩ => ⟨S32768x896, .f32⟩
  | .hbm, ⟨79, _⟩ => ⟨S896x896, .f32⟩
  | .hbm, ⟨80, _⟩ => ⟨S32768x896, .f32⟩
  | .hbm, ⟨81, _⟩ => ⟨S1x896, .f32⟩
  | .hbm, ⟨82, _⟩ => ⟨S32768x896, .f32⟩
  | .hbm, ⟨83, _⟩ => ⟨S32768x896, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S32768x896, .f32⟩
  | .hbm, ⟨91, _⟩ => ⟨S32768x896, .f32⟩
  | .hbm, ⟨92, _⟩ => ⟨S32768x896, .f32⟩
  | .hbm, ⟨93, _⟩ => ⟨S_, .f32⟩
  | .hbm, ⟨94, _⟩ => ⟨S32768, .f32⟩
  | .hbm, ⟨95, _⟩ => ⟨S32768x1, .f32⟩
  | .hbm, ⟨96, _⟩ => ⟨S_, .f32⟩
  | .hbm, ⟨97, _⟩ => ⟨S32768x1, .f32⟩
  | .hbm, ⟨98, _⟩ => ⟨S32768x1, .f32⟩
  | .hbm, ⟨99, _⟩ => ⟨S32768x896, .f32⟩
  | .hbm, ⟨100, _⟩ => ⟨S32768x896, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1, .f32⟩
  | .hbm, ⟨105, _⟩ => ⟨S32768x896, .f32⟩
  | .hbm, ⟨106, _⟩ => ⟨S32768x896, .f32⟩
  | .hbm, ⟨107, _⟩ => ⟨S1x896, .f32⟩
  | .hbm, ⟨108, _⟩ => ⟨S32768x896, .f32⟩
  | .hbm, ⟨109, _⟩ => ⟨S32768x896, .f32⟩
  | .hbm, ⟨110, _⟩ => ⟨S1x896, .f32⟩
  | .hbm, ⟨111, _⟩ => ⟨S32768x896, .f32⟩
  | .hbm, ⟨112, _⟩ => ⟨S32768x896, .f32⟩
  | .hbm, ⟨113, _⟩ => ⟨S32768x896, .f32⟩
  | _, _ => ⟨S32768x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2688x896_S896x896_0_0 : S2688x896.Slices ![0, 0] S896x896
  transposes_S896x896_S896x896_1_0 : S896x896.Transposes [1, 0] S896x896
  slices_S2688_S896_0 : S2688.Slices ![0] S896
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  slices_S2688x896_S896x896_896_0 : S2688x896.Slices ![896, 0] S896x896
  slices_S2688_S896_896 : S2688.Slices ![896] S896
  slices_S2688x896_S896x896_1792_0 : S2688x896.Slices ![1792, 0] S896x896
  slices_S2688_S896_1792 : S2688.Slices ![1792] S896
  shapeCasts_S32768x896_S32768x8x112 : S32768x896.ShapeCasts S32768x8x112
  reducesTo_S32768x8x112_S32768x8_d2 : S32768x8x112.ReducesTo [2] S32768x8
  h_S_ : 0 < S_.numel
  bcast_S32768x8_S32768x8x1_0_1 : S32768x8.BroadcastsInDim S32768x8x1 (![0, 1] : Fin 2 → Fin S32768x8x1.rank)
  bcast_S_S32768x8x1 : S_.BroadcastsInDim S32768x8x1 (![] : Fin 0 → Fin S32768x8x1.rank)
  reducesTo_S32768x8x1_S32768x8_d2 : S32768x8x1.ReducesTo [2] S32768x8
  bcast_S_S32768x8 : S_.BroadcastsInDim S32768x8 (![] : Fin 0 → Fin S32768x8.rank)
  bcast_S32768x8x1_S32768x8x112_0_1_2 : S32768x8x1.BroadcastsInDim S32768x8x112 (![0, 1, 2] : Fin 3 → Fin S32768x8x112.rank)
  shapeCasts_S32768x8x112_S32768x896 : S32768x8x112.ShapeCasts S32768x896
  concatenates_S32768x896_S32768x896_S32768x1792_d1 : Shape.Concatenates [S32768x896, S32768x896] S32768x1792 1
  transposes_S896x1792_S1792x896_1_0 : S896x1792.Transposes [1, 0] S1792x896
  bcast_S_S32768x896 : S_.BroadcastsInDim S32768x896 (![] : Fin 0 → Fin S32768x896.rank)
  reducesTo_S32768x896_S32768_d1 : S32768x896.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x896_0_1 : S32768x1.BroadcastsInDim S32768x896 (![0, 1] : Fin 2 → Fin S32768x896.rank)
  dot_S32768x896_S896x896_S32768x896_1_0_0_1_n_n_wf : DotDims.WF S32768x896 S896x896 S32768x896 [1] [0] [0] [1] [] []
  dot_S32768x1792_S1792x896_S32768x896_1_0_0_1_n_n_wf : DotDims.WF S32768x1792 S1792x896 S32768x896 [1] [0] [0] [1] [] []

variable [Facts₀]

def dot_S32768x896_S896x896_S32768x896_1_0_0_1_n_n : DotDims S32768x896 S896x896 S32768x896 where
  lhsContracting := [1]
  rhsContracting := [0]
  lhsNonContracting := [0]
  rhsNonContracting := [1]
  lhsBatch := []
  rhsBatch := []
  wf := dot_S32768x896_S896x896_S32768x896_1_0_0_1_n_n_wf
def dot_S32768x1792_S1792x896_S32768x896_1_0_0_1_n_n : DotDims S32768x1792 S1792x896 S32768x896 where
  lhsContracting := [1]
  rhsContracting := [0]
  lhsNonContracting := [0]
  rhsNonContracting := [1]
  lhsBatch := []
  rhsBatch := []
  wf := dot_S32768x1792_S1792x896_S32768x896_1_0_0_1_n_n_wf

class Facts : Prop extends Facts₀ where

variable [Facts]
-- ==== Proof.RowSpec.lean ====
/-
  The function both programs compute, one row at a time, on the extended reals.

  A row of the result depends on one row `h` of the hidden state and one row `φ` of the features, and on the
  weights. With a single key/value position the attention weights are all one, so the attention output of a row is
  its value projection; the rest is two affine maps around a SiLU, a LayerNorm over the row, and the residual:

    value  = φ · Wv + bv
    attn   = value · Wo + bo
    joined = [h , attn]                       (1792 entries)
    gate1  = joined · W1 + b1
    act    = gate1 * logistic gate1
    gate2  = act · W2 + b2
    mean   = (∑ gate2) / 896,   variance = (∑ (gate2 - mean)²) / 896
    out    = h + ((gate2 - mean) * rsqrt (variance + ε) * g + β)

  Every weight is given as a function `w k j`: the factor of input entry `k` in output entry `j`.
-/
import Idealize.ShloMosaic.PureOps.Ideal
import Idealize.ShloMosaic.PureOps.Ideal.Laws

noncomputable section

open Idealize.ShloMosaic

namespace Cert.GateRow

/-- The row length 896 as the float literal both programs divide by. -/
abbrev len : EReal := Ideal.ofBits .f32 0x44600000#32
/-- The LayerNorm's ε, the float literal both programs add to the variance. -/
abbrev eps : EReal := Ideal.ofBits .f32 0x3727C5AC#32

variable (h φ : Fin 896 → EReal)
  (wv : Fin 896 → Fin 896 → EReal) (bv : Fin 896 → EReal)
  (wo : Fin 896 → Fin 896 → EReal) (bo : Fin 896 → EReal)
  (w1 : Fin 1792 → Fin 896 → EReal) (b1 : Fin 896 → EReal)
  (w2 : Fin 896 → Fin 896 → EReal) (b2 : Fin 896 → EReal)
  (g β : Fin 896 → EReal)

/-- The value projection of the feature row. -/
def value (j : Fin 896) : EReal := (∑ k : Fin 896, φ k * wv k j) + bv j

/-- The attention output: the output projection of the value row (the attention weights are one). -/
def attn (j : Fin 896) : EReal := (∑ k : Fin 896, value φ wv bv k * wo k j) + bo j

/-- The hidden row and the attention row laid end to end. -/
def joined (k : Fin 1792) : EReal :=
  if hk : k.val < 896 then h ⟨k.val, hk⟩ else attn φ wv bv wo bo ⟨k.val - 896, by have := k.isLt; omega⟩

/-- The first affine map of the gate. -/
def gate1 (j : Fin 896) : EReal := (∑ k : Fin 1792, joined h φ wv bv wo bo k * w1 k j) + b1 j

/-- SiLU of the first affine map. -/
def act (j : Fin 896) : EReal :=
  gate1 h φ wv bv wo bo w1 b1 j * Ideal.logistic (gate1 h φ wv bv wo bo w1 b1 j)

/-- The second affine map of the gate. -/
def gate2 (j : Fin 896) : EReal := (∑ k : Fin 896, act h φ wv bv wo bo w1 b1 k * w2 k j) + b2 j

/-- The row's mean. -/
def mean : EReal := Ideal.div (∑ k : Fin 896, gate2 h φ wv bv wo bo w1 b1 w2 b2 k) len

/-- The row's (biased) variance. -/
def variance : EReal :=
  Ideal.div (∑ k : Fin 896, (gate2 h φ wv bv wo bo w1 b1 w2 b2 k - mean h φ wv bv wo bo w1 b1 w2 b2)
    * (gate2 h φ wv bv wo bo w1 b1 w2 b2 k - mean h φ wv bv wo bo w1 b1 w2 b2)) len

/-- The result row: the hidden row plus the normalized, scaled and shifted gate. -/
def out (j : Fin 896) : EReal :=
  h j + ((gate2 h φ wv bv wo bo w1 b1 w2 b2 j - mean h φ wv bv wo bo w1 b1 w2 b2)
    * Ideal.rsqrt (variance h φ wv bv wo bo w1 b1 w2 b2 + eps) * g j + β j)

end Cert.GateRow

end
-- ==== Proof.KernelLayout.lean ====
/-
  One grid point of the kernel, read row by row.

  The kernel's body works on a block of 512 rows.  Entry (p, q) of the block it stores depends only on row p of its two
  streamed input blocks and on the weights: it is the row function of Proof/RowSpec.lean applied to those rows.  Each
  matrix product is read as a sum over the contracted axis, each lane reduction as a sum over the row, the bias rows and the
  per-row mean and scale as broadcasts of one entry.
-/
import proofs.«167850_j90941637526290_2_alg».proof.Proof.Gen.KernelIdeal.Value
import proofs.«167850_j90941637526290_2_alg».proof.Proof.RowSpec
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx

/-! ## The two matrix products read at an entry -/

abbrev D896 := dot_S512x896_S896x896_S512x896_1_0_0_1_n_n
abbrev D1792 := dot_S512x1792_S1792x896_S512x896_1_0_0_1_n_n

theorem lhs896_0 (i : S512x896.Idx) (q : D896.contr.Idx) : (D896.lhsIdx i q 0).val = (i 0).val := by
  unfold DotDims.lhsIdx
  rw [dif_neg (show ¬(0 : Fin S512x896.rank) ∈ D896.lhsBatch by decide), dif_pos (show (0 : Fin S512x896.rank) ∈ D896.lhsNonContracting by decide)]
  rfl
theorem rhs896_1 (i : S512x896.Idx) (q : D896.contr.Idx) : (D896.rhsIdx i q 1).val = (i 1).val := by
  unfold DotDims.rhsIdx
  rw [dif_neg (show ¬(1 : Fin S896x896.rank) ∈ D896.rhsBatch by decide), dif_pos (show (1 : Fin S896x896.rank) ∈ D896.rhsNonContracting by decide)]
  rfl
theorem lhs1792_0 (i : S512x896.Idx) (q : D1792.contr.Idx) : (D1792.lhsIdx i q 0).val = (i 0).val := by
  unfold DotDims.lhsIdx
  rw [dif_neg (show ¬(0 : Fin S512x1792.rank) ∈ D1792.lhsBatch by decide), dif_pos (show (0 : Fin S512x1792.rank) ∈ D1792.lhsNonContracting by decide)]
  rfl
theorem rhs1792_1 (i : S512x896.Idx) (q : D1792.contr.Idx) : (D1792.rhsIdx i q 1).val = (i 1).val := by
  unfold DotDims.rhsIdx
  rw [dif_neg (show ¬(1 : Fin S1792x896.rank) ∈ D1792.rhsBatch by decide), dif_pos (show (1 : Fin S1792x896.rank) ∈ D1792.rhsNonContracting by decide)]
  rfl

/-- A [512, 896] × [896, 896] product into a zero accumulator, at entry (p, q): the sum over the 896 contracted entries. -/
theorem matmul896_apply (A : FVec Ideal S512x896 .bf16) (B : FVec Ideal S896x896 .bf16) (p : Fin 512) (q : Fin 896) :
    matmul D896 none A B (constant S512x896 .f32 0x00000000#32) (ix2 p q) = ∑ k : Fin 896, A (ix2 p k) * B (ix2 k q) := by
  simp only [matmul]
  rw [Ideal.matmul_constant_zero_apply, ← Equiv.sum_comp (ValueIdx.contrEquiv1 D896 896 rfl rfl).symm]
  refine Finset.sum_congr rfl fun k _ => ?_
  have hk := ValueIdx.contrEquiv1_symm_val D896 896 rfl rfl k
  have el : D896.lhsIdx (ix2 p q) ((ValueIdx.contrEquiv1 D896 896 rfl rfl).symm k) = ix2 p k := funext fun a => Fin.ext (by
    match a with
    | ⟨0, _⟩ => exact lhs896_0 _ _
    | ⟨1, _⟩ => exact (D896.lhsIdx_val_of_single rfl _ _).trans hk)
  have er : D896.rhsIdx (ix2 p q) ((ValueIdx.contrEquiv1 D896 896 rfl rfl).symm k) = ix2 k q := funext fun a => Fin.ext (by
    match a with
    | ⟨0, _⟩ => exact (D896.rhsIdx_val_of_single rfl _ _).trans hk
    | ⟨1, _⟩ => exact rhs896_1 _ _)
  rw [el, er]

/-- A [512, 1792] × [1792, 896] product into a zero accumulator, at entry (p, q). -/
theorem matmul1792_apply (A : FVec Ideal S512x1792 .bf16) (B : FVec Ideal S1792x896 .bf16) (p : Fin 512) (q : Fin 896) :
    matmul D1792 none A B (constant S512x896 .f32 0x00000000#32) (ix2 p q) = ∑ k : Fin 1792, A (ix2 p k) * B (ix2 k q) := by
  simp only [matmul]
  rw [Ideal.matmul_constant_zero_apply, ← Equiv.sum_comp (ValueIdx.contrEquiv1 D1792 1792 rfl rfl).symm]
  refine Finset.sum_congr rfl fun k _ => ?_
  have hk := ValueIdx.contrEquiv1_symm_val D1792 1792 rfl rfl k
  have el : D1792.lhsIdx (ix2 p q) ((ValueIdx.contrEquiv1 D1792 1792 rfl rfl).symm k) = ix2 p k := funext fun a => Fin.ext (by
    match a with
    | ⟨0, _⟩ => exact lhs1792_0 _ _
    | ⟨1, _⟩ => exact (D1792.lhsIdx_val_of_single rfl _ _).trans hk)
  have er : D1792.rhsIdx (ix2 p q) ((ValueIdx.contrEquiv1 D1792 1792 rfl rfl).symm k) = ix2 k q := funext fun a => Fin.ext (by
    match a with
    | ⟨0, _⟩ => exact (D1792.rhsIdx_val_of_single rfl _ _).trans hk
    | ⟨1, _⟩ => exact rhs1792_1 _ _)
  rw [el, er]

/-! ## Layout operations read at an entry -/

/-- A bias row [1, 896] broadcast down the 512 rows, at (p, j): the row's entry j. -/
theorem rowBroadcast_apply (v : FVec Ideal S1x896 .f32) (p : Fin 512) (j : Fin 896) :
    broadcastTo S512x896 v broadcasts_S1x896_S512x896 (ix2 p j) = v (ix2 (0 : Fin 1) j) :=
  broadcastTo_apply v broadcasts_S1x896_S512x896 (ix2 p j) (ix2 (0 : Fin 1) j) (fun a => match a with
    | ⟨0, _⟩ => by show 0 = (if (1 : Nat) = 1 then 0 else p.val); rw [if_pos rfl]
    | ⟨1, _⟩ => by show j.val = (if (896 : Nat) = 1 then 0 else j.val); rw [if_neg (by decide)])

/-- A column [512, 1] broadcast along the 896 lanes, at (p, j): the column's entry p. -/
theorem colBroadcast_apply (v : FVec Ideal S512x1 .f32) (p : Fin 512) (j : Fin 896) :
    broadcastTo S512x896 v broadcasts_S512x1_S512x896 (ix2 p j) = v (ix2 p (0 : Fin 1)) :=
  broadcastTo_apply v broadcasts_S512x1_S512x896 (ix2 p j) (ix2 p (0 : Fin 1)) (fun a => match a with
    | ⟨0, _⟩ => by show p.val = (if (512 : Nat) = 1 then 0 else p.val); rw [if_neg (by decide)]
    | ⟨1, _⟩ => by show 0 = (if (1 : Nat) = 1 then 0 else j.val); rw [if_pos rfl])

/-- A [512] vector recast as a [512, 1] column, at (p, 0): its entry p. -/
theorem colCast_apply (v : FVec Ideal S512 .f32) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]; show p.val = p.val * 1 + 0; omega)

/-- A lane sum of a [512, 896] block, at row p: the sum over the row. -/
theorem rowSum_apply (X : FVec Ideal S512x896 .f32) (p : Fin 512) :
    multiReduction .add [1] S512 X 0x00000000#32 reduces_S512x896_S512 (.inl rfl) rfl (ix1 p) = ∑ k : Fin 896, X (ix2 p k) := by
  refine (Ideal.multiReduction_add_single X 0x00000000#32 reduces_S512x896_S512 (.inl rfl) rfl (ix1 p)).trans ?_
  exact Finset.sum_congr rfl fun k _ => congrArg X (funext fun a => Fin.ext (by match a with | ⟨0, _⟩ => rfl | ⟨1, _⟩ => rfl))

/-- Two [512, 896] blocks joined along the lanes, at (p, k): the left block below lane 896, the right block from there. -/
theorem join_apply (a b : FVec Ideal S512x896 .f32) (p : Fin 512) (k : Fin 1792) :
    concatenate S512x1792 1 [⟨S512x896, a⟩, ⟨S512x896, b⟩] concatenates_S512x896_S512x896_S512x1792_d1 (ix2 p k)
      = if hk : k.val < 896 then a (ix2 p ⟨k.val, hk⟩) else b (ix2 p ⟨k.val - 896, by have := k.isLt; omega⟩) := by
  by_cases hk : k.val < 896
  · rw [dif_pos hk]
    exact concatenate_pair_apply_left 1 a b concatenates_S512x896_S512x896_S512x1792_d1 (ix2 p k) rfl (ix2 p ⟨k.val, hk⟩)
      (fun c => match c with | ⟨0, _⟩ => rfl | ⟨1, _⟩ => rfl)
  · rw [dif_neg hk]
    exact concatenate_pair_apply_right 1 a b concatenates_S512x896_S512x896_S512x1792_d1 (ix2 p k) rfl rfl
      (ix2 p ⟨k.val - 896, by have := k.isLt; omega⟩)
      (fun c => match c with | ⟨0, _⟩ => fun _ => rfl | ⟨1, _⟩ => fun h => absurd rfl h)
      (by show (k.val - 896) + 896 = k.val; omega)

end Cert.KernelIdeal.RowValue

end
-- ==== Proof.KernelRow.lean ====
/-
  The kernel's block, entry by entry, is the row function.

  For the loads of one grid point — two streamed blocks P0 (hidden rows) and P1 (feature rows), and the resident weights and
  bias rows P2 … P11 — the block the body stores has at (p, q) the value `GateRow.out` of row p of P0 and P1 at q,
  with each weight read as (contracted entry, output entry).
-/
import proofs.«167850_j90941637526290_2_alg».proof.Proof.KernelLayout

noncomputable section

namespace Cert.KernelIdeal.RowValue

open Cert.KernelIdeal Cert.KernelIdeal.Gen Idealize.ShloMosaic Idealize.ShloMosaic.TcCoe Idealize.ShloMosaic.ValueIdx

variable (P0 P1 : FVec Ideal S512x896 .f32) (P2 : FVec Ideal S896x896 .bf16) (P3 : FVec Ideal S1x896 .f32)
  (P4 : FVec Ideal S896x896 .bf16) (P5 : FVec Ideal S1x896 .f32) (P6 : FVec Ideal S1792x896 .bf16) (P7 : FVec Ideal S1x896 .f32)
  (P8 : FVec Ideal S896x896 .bf16) (P9 P10 P11 : FVec Ideal S1x896 .f32)

/-! ## The body's intermediate blocks -/

/-- The value projection of the feature block. -/
def valueBlk : FVec Ideal S512x896 .f32 :=
  addf (matmul D896 none (truncf .bf16 P1 bitsLt_bf16_f32) (shapeCast S896x896 P2 shapeCasts_S896x896_S896x896) (constant S512x896 .f32 0x00000000#32))
    (broadcastTo S512x896 (shapeCast S1x896 P3 shapeCasts_S1x896_S1x896) broadcasts_S1x896_S512x896)

/-- The attention output block. -/
def attnBlk : FVec Ideal S512x896 .f32 :=
  addf (matmul D896 none (truncf .bf16 (valueBlk P1 P2 P3) bitsLt_bf16_f32) (shapeCast S896x896 P4 shapeCasts_S896x896_S896x896) (constant S512x896 .f32 0x00000000#32))
    (broadcastTo S512x896 (shapeCast S1x896 P5 shapeCasts_S1x896_S1x896) broadcasts_S1x896_S512x896)

/-- The first affine map of the gate, on the joined block. -/
def gate1Blk : FVec Ideal S512x896 .f32 :=
  addf (matmul D1792 none (truncf .bf16 (concatenate S512x1792 1 [⟨S512x896, P0⟩, ⟨S512x896, attnBlk P1 P2 P3 P4 P5⟩] concatenates_S512x896_S512x896_S512x1792_d1) bitsLt_bf16_f32)
      (shapeCast S1792x896 P6 shapeCasts_S1792x896_S1792x896) (constant S512x896 .f32 0x00000000#32))
    (broadcastTo S512x896 (shapeCast S1x896 P7 shapeCasts_S1x896_S1x896) broadcasts_S1x896_S512x896)

/-- The body's matrix-product payload is the second affine map's product, of these blocks. -/
theorem pay2_eq : k0_pay2 P0 P1 P2 P3 P4 P5 P6 P7 P8
    = matmul D896 none (truncf .bf16 (mulf (gate1Blk P0 P1 P2 P3 P4 P5 P6 P7) (logistic (gate1Blk P0 P1 P2 P3 P4 P5 P6 P7))) bitsLt_bf16_f32)
        (shapeCast S896x896 P8 shapeCasts_S896x896_S896x896) (constant S512x896 .f32 0x00000000#32) := rfl

/-! ## Each block at an entry is the row function of the row -/

section Rows
variable (p : Fin 512)

/-- The row function's arguments at row `p` of the loads. -/
abbrev hRow : Fin 896 → EReal := fun k => P0 (ix2 p k)
abbrev fRow : Fin 896 → EReal := fun k => P1 (ix2 p k)
abbrev wOf (W : FVec Ideal S896x896 .bf16) : Fin 896 → Fin 896 → EReal := fun k j => W (ix2 k j)
abbrev w1Of (W : FVec Ideal S1792x896 .bf16) : Fin 1792 → Fin 896 → EReal := fun k j => W (ix2 k j)
abbrev bOf (b : FVec Ideal S1x896 .f32) : Fin 896 → EReal := fun j => b (ix2 (0 : Fin 1) j)

theorem valueBlk_apply (j : Fin 896) :
    valueBlk P1 P2 P3 (ix2 p j) = GateRow.value (fRow P1 p) (wOf P2) (bOf P3) j := by
  show matmul D896 none (truncf .bf16 P1 bitsLt_bf16_f32) (shapeCast S896x896 P2 shapeCasts_S896x896_S896x896) (constant S512x896 .f32 0x00000000#32) (ix2 p j)
    + broadcastTo S512x896 (shapeCast S1x896 P3 shapeCasts_S1x896_S1x896) broadcasts_S1x896_S512x896 (ix2 p j) = _
  rw [matmul896_apply, rowBroadcast_apply, shapeCast_self, shapeCast_self]
  rfl

theorem attnBlk_apply (j : Fin 896) :
    attnBlk P1 P2 P3 P4 P5 (ix2 p j) = GateRow.attn (fRow P1 p) (wOf P2) (bOf P3) (wOf P4) (bOf P5) j := by
  show matmul D896 none (truncf .bf16 (valueBlk P1 P2 P3) bitsLt_bf16_f32) (shapeCast S896x896 P4 shapeCasts_S896x896_S896x896) (constant S512x896 .f32 0x00000000#32) (ix2 p j)
    + broadcastTo S512x896 (shapeCast S1x896 P5 shapeCasts_S1x896_S1x896) broadcasts_S1x896_S512x896 (ix2 p j) = _
  rw [matmul896_apply, rowBroadcast_apply, shapeCast_self, shapeCast_self]
  unfold GateRow.attn
  refine congrArg (· + _) (Finset.sum_congr rfl fun k _ => ?_)
  show valueBlk P1 P2 P3 (ix2 p k) * _ = _
  rw [valueBlk_apply]

theorem gate1Blk_apply (j : Fin 896) :
    gate1Blk P0 P1 P2 P3 P4 P5 P6 P7 (ix2 p j)
      = GateRow.gate1 (hRow P0 p) (fRow P1 p) (wOf P2) (bOf P3) (wOf P4) (bOf P5) (w1Of P6) (bOf P7) j := by
  show matmul D1792 none (truncf .bf16 (concatenate S512x1792 1 [⟨S512x896, P0⟩, ⟨S512x896, attnBlk P1 P2 P3 P4 P5⟩] concatenates_S512x896_S512x896_S512x1792_d1) bitsLt_bf16_f32)
      (shapeCast S1792x896 P6 shapeCasts_S1792x896_S1792x896) (constant S512x896 .f32 0x00000000#32) (ix2 p j)
    + broadcastTo S512x896 (shapeCast S1x896 P7 shapeCasts_S1x896_S1x896) broadcasts_S1x896_S512x896 (ix2 p j) = _
  rw [matmul1792_apply, rowBroadcast_apply, shapeCast_self, shapeCast_self]
  unfold GateRow.gate1
  refine congrArg (· + _) (Finset.sum_congr rfl fun k _ => ?_)
  show concatenate S512x1792 1 [⟨S512x896, P0⟩, ⟨S512x896, attnBlk P1 P2 P3 P4 P5⟩] concatenates_S512x896_S512x896_S512x1792_d1 (ix2 p k) * _ = _
  rw [join_apply]
  unfold GateRow.joined
  by_cases hk : k.val < 896
  · rw [dif_pos hk, dif_pos hk]
  · rw [dif_neg hk, dif_neg hk, attnBlk_apply]

/-- The payload plus its bias row, at (p, j): the second affine map. -/
theorem gate2_apply (j : Fin 896) :
    k0_pay2 P0 P1 P2 P3 P4 P5 P6 P7 P8 (ix2 p j) + P9 (ix2 (0 : Fin 1) j)
      = GateRow.gate2 (hRow P0 p) (fRow P1 p) (wOf P2) (bOf P3) (wOf P4) (bOf P5) (w1Of P6) (bOf P7) (wOf P8) (bOf P9) j := by
  rw [pay2_eq, matmul896_apply, shapeCast_self]
  unfold GateRow.gate2
  refine congrArg (· + _) (Finset.sum_congr rfl fun k _ => ?_)
  show (gate1Blk P0 P1 P2 P3 P4 P5 P6 P7 (ix2 p k) * Ideal.logistic (gate1Blk P0 P1 P2 P3 P4 P5 P6 P7 (ix2 p k))) * _ = _
  rw [gate1Blk_apply]
  rfl

end Rows

end Cert.KernelIdeal.RowValue

end
-- ==== Proof.KernelOut.lean ====
/-
  The stored block, entry by entry: the LayerNorm and the residual around the second affine map.

  At (p, q) the block the body stores is `GateRow.out` of row p of the two streamed blocks: the mean and the variance
  are lane sums over row p divided by 896, broadcast back along the row.
-/
import proofs.«167850_j90941637526290_2_alg».proof.Proof.KernelRow

noncomputable section

namespace Cert.KernelIdeal.RowValue

open Cert.KernelIdeal Cert.KernelIdeal.Gen Idealize.ShloMosaic Idealize.ShloMosaic.TcCoe Idealize.ShloMosaic.ValueIdx

variable (P0 P1 : FVec Ideal S512x896 .f32) (P2 : FVec Ideal S896x896 .bf16) (P3 : FVec Ideal S1x896 .f32)
  (P4 : FVec Ideal S896x896 .bf16) (P5 : FVec Ideal S1x896 .f32) (P6 : FVec Ideal S1792x896 .bf16) (P7 : FVec Ideal S1x896 .f32)
  (P8 : FVec Ideal S896x896 .bf16) (P9 P10 P11 : FVec Ideal S1x896 .f32)

/-- The second affine map's block: the product payload plus its bias row. -/
def gate2Blk : FVec Ideal S512x896 .f32 :=
  addf (k0_pay2 P0 P1 P2 P3 P4 P5 P6 P7 P8) (broadcastTo S512x896 (shapeCast S1x896 P9 shapeCasts_S1x896_S1x896) broadcasts_S1x896_S512x896)

/-- The lane sums of a block. -/
def rowSums (X : FVec Ideal S512x896 .f32) : FVec Ideal S512 .f32 :=
  multiReduction .add [1] S512 X 0x00000000#32 reduces_S512x896_S512 (.inl rfl) rfl

/-- The per-row mean as a column. -/
def meanCol : FVec Ideal S512x1 .f32 :=
  divf (shapeCast S512x1 (rowSums (gate2Blk P0 P1 P2 P3 P4 P5 P6 P7 P8 P9)) shapeCasts_S512_S512x1) (broadcast S512x1 (Scalar.ofBits .f32 0x44600000#32))

/-- The block minus its row means. -/
def centredBlk : FVec Ideal S512x896 .f32 :=
  subf (gate2Blk P0 P1 P2 P3 P4 P5 P6 P7 P8 P9) (broadcastTo S512x896 (meanCol P0 P1 P2 P3 P4 P5 P6 P7 P8 P9) broadcasts_S512x1_S512x896)

section Rows
variable (p : Fin 512)

local notation "ROW" f => f (hRow P0 p) (fRow P1 p) (wOf P2) (bOf P3) (wOf P4) (bOf P5) (w1Of P6) (bOf P7) (wOf P8) (bOf P9)

theorem gate2Blk_apply (j : Fin 896) : gate2Blk P0 P1 P2 P3 P4 P5 P6 P7 P8 P9 (ix2 p j) = (ROW GateRow.gate2) j := by
  show k0_pay2 P0 P1 P2 P3 P4 P5 P6 P7 P8 (ix2 p j)
    + broadcastTo S512x896 (shapeCast S1x896 P9 shapeCasts_S1x896_S1x896) broadcasts_S1x896_S512x896 (ix2 p j) = _
  rw [rowBroadcast_apply, shapeCast_self]
  exact gate2_apply P0 P1 P2 P3 P4 P5 P6 P7 P8 P9 p j

theorem mean_apply :
    Ideal.div (rowSums (gate2Blk P0 P1 P2 P3 P4 P5 P6 P7 P8 P9) (ix1 p)) (Ideal.ofBits .f32 0x44600000#32) = (ROW GateRow.mean) := by
  unfold rowSums GateRow.mean
  rw [rowSum_apply]
  exact congrArg (Ideal.div · _) (Finset.sum_congr rfl fun k _ => gate2Blk_apply P0 P1 P2 P3 P4 P5 P6 P7 P8 P9 p k)

theorem centredBlk_apply (k : Fin 896) :
    centredBlk P0 P1 P2 P3 P4 P5 P6 P7 P8 P9 (ix2 p k) = (ROW GateRow.gate2) k - (ROW GateRow.mean) := by
  show gate2Blk P0 P1 P2 P3 P4 P5 P6 P7 P8 P9 (ix2 p k)
    - broadcastTo S512x896 (meanCol P0 P1 P2 P3 P4 P5 P6 P7 P8 P9) broadcasts_S512x1_S512x896 (ix2 p k) = _
  rw [colBroadcast_apply, gate2Blk_apply]
  show _ - Ideal.div (shapeCast S512x1 (rowSums (gate2Blk P0 P1 P2 P3 P4 P5 P6 P7 P8 P9)) shapeCasts_S512_S512x1 (ix2 p (0 : Fin 1))) (Ideal.ofBits .f32 0x44600000#32) = _
  rw [colCast_apply, mean_apply]

theorem variance_apply :
    Ideal.div (rowSums (mulf (centredBlk P0 P1 P2 P3 P4 P5 P6 P7 P8 P9) (centredBlk P0 P1 P2 P3 P4 P5 P6 P7 P8 P9)) (ix1 p)) (Ideal.ofBits .f32 0x44600000#32)
      = (ROW GateRow.variance) := by
  unfold rowSums GateRow.variance
  rw [rowSum_apply]
  refine congrArg (Ideal.div · _) (Finset.sum_congr rfl fun k _ => ?_)
  show centredBlk P0 P1 P2 P3 P4 P5 P6 P7 P8 P9 (ix2 p k) * centredBlk P0 P1 P2 P3 P4 P5 P6 P7 P8 P9 (ix2 p k) = _
  rw [centredBlk_apply]

/-- THE STORED BLOCK at (p, q) is the row function of row p, at q. -/
theorem block_apply (q : Fin 896) :
    Value.E12 (F := Ideal) P0 P1 P2 P3 P4 P5 P6 P7 P8 P9 P10 P11 (ix2 p q) = (ROW GateRow.out) (bOf P10) (bOf P11) q := by
  have e0 : Value.ix12_0 (ix2 p q) = ix2 p q := funext fun a => by match a with | ⟨0, _⟩ => rfl | ⟨1, _⟩ => rfl
  have e1 : Value.ix12_1 (ix2 p q) = ix2 p q := funext fun a => by match a with | ⟨0, _⟩ => rfl | ⟨1, _⟩ => rfl
  have e2 : Value.ix12_2 (ix2 p q) = ix2 (0 : Fin 1) q := funext fun a => by match a with | ⟨0, _⟩ => rfl | ⟨1, _⟩ => rfl
  have e3 : Value.ix12_3 (ix2 p q) = ix1 p := funext fun a => by match a with | ⟨0, _⟩ => rfl
  have e4 : Value.ix12_4 (ix2 p q) = ix1 p := funext fun a => by match a with | ⟨0, _⟩ => rfl
  have e5 : Value.ix12_5 (ix2 p q) = ix2 (0 : Fin 1) q := funext fun a => by match a with | ⟨0, _⟩ => rfl | ⟨1, _⟩ => rfl
  have e6 : Value.ix12_6 (ix2 p q) = ix2 (0 : Fin 1) q := funext fun a => by match a with | ⟨0, _⟩ => rfl | ⟨1, _⟩ => rfl
  show P0 (Value.ix12_0 (ix2 p q))
      + ((((k0_pay2 P0 P1 P2 P3 P4 P5 P6 P7 P8 (Value.ix12_1 (ix2 p q)) + P9 (Value.ix12_2 (ix2 p q)))
            - Ideal.div (rowSums (gate2Blk P0 P1 P2 P3 P4 P5 P6 P7 P8 P9) (Value.ix12_3 (ix2 p q))) (Ideal.ofBits .f32 0x44600000#32))
          * Ideal.rsqrt (Ideal.div (rowSums (mulf (centredBlk P0 P1 P2 P3 P4 P5 P6 P7 P8 P9) (centredBlk P0 P1 P2 P3 P4 P5 P6 P7 P8 P9)) (Value.ix12_4 (ix2 p q))) (Ideal.ofBits .f32 0x44600000#32)
              + Ideal.ofBits .f32 0x3727C5AC#32))
        * P10 (Value.ix12_5 (ix2 p q)) + P11 (Value.ix12_6 (ix2 p q))) = _
  rw [e0, e1, e2, e3, e4, e5, e6, gate2_apply, mean_apply, variance_apply]
  rfl

end Rows

end Cert.KernelIdeal.RowValue

end
-- ==== Proof.KernelBlocks.lean ====
/-
  What each window's block holds at a grid point, in terms of the argument arrays.

  Grid point t (of 64) stages rows 512 t … 512 t + 511 of the hidden states and of the features; every other window's block is
  a whole array the host wrote before the call: a transposed weight (the value projection's being the transposed last third of
  the packed projection) or a bias vector recast as a one-row matrix.
-/
import proofs.«167850_j90941637526290_2_alg».proof.Proof.Gen.KernelIdeal.Value
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The index maps, decided over the 64 grid points -/

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-! ## The arrays the host wrote before the call -/

section Host
variable (c : Dev nD)

theorem V_v2 : (V m c main_v2 : S896x896.Idx → EReal)
    = truncf (F := Ideal) .bf16 (transpose S896x896 [1, 0] (extractStridedSlice S896x896 ![1792, 0] (m ((c : Thread nD τ).loc main_arg2)) slices_S2688x896_S896x896_1792_0) transposes_S896x896_S896x896_1_0) bitsLt_bf16_f32 := by
  dsimp only [Gen.V, Gen.hostOps0]; after_results <;> rfl

theorem V_v4 : (V m c main_v4 : S1x896.Idx → EReal)
    = shapeCast S1x896 (extractStridedSlice S896 ![1792] (m ((c : Thread nD τ).loc main_arg3)) slices_S2688_S896_1792) shapeCasts_S896_S1x896 := by
  dsimp only [Gen.V, Gen.hostOps0]; after_results <;> rfl

theorem V_v6 : (V m c main_v6 : S896x896.Idx → EReal)
    = truncf (F := Ideal) .bf16 (transpose S896x896 [1, 0] (m ((c : Thread nD τ).loc main_arg4)) transposes_S896x896_S896x896_1_0) bitsLt_bf16_f32 := by
  dsimp only [Gen.V, Gen.hostOps0]; after_results <;> rfl

theorem V_v7 : (V m c main_v7 : S1x896.Idx → EReal)
    = shapeCast S1x896 (m ((c : Thread nD τ).loc main_arg5)) shapeCasts_S896_S1x896 := by
  dsimp only [Gen.V, Gen.hostOps0]; after_results <;> rfl

theorem V_v9 : (V m c main_v9 : S1792x896.Idx → EReal)
    = truncf (F := Ideal) .bf16 (transpose S1792x896 [1, 0] (m ((c : Thread nD τ).loc main_arg6)) transposes_S896x1792_S1792x896_1_0) bitsLt_bf16_f32 := by
  dsimp only [Gen.V, Gen.hostOps0]; after_results <;> rfl

theorem V_v10 : (V m c main_v10 : S1x896.Idx → EReal)
    = shapeCast S1x896 (m ((c : Thread nD τ).loc main_arg7)) shapeCasts_S896_S1x896 := by
  dsimp only [Gen.V, Gen.hostOps0]; after_results <;> rfl

theorem V_v12 : (V m c main_v12 : S896x896.Idx → EReal)
    = truncf (F := Ideal) .bf16 (transpose S896x896 [1, 0] (m ((c : Thread nD τ).loc main_arg8)) transposes_S896x896_S896x896_1_0) bitsLt_bf16_f32 := by
  dsimp only [Gen.V, Gen.hostOps0]; after_results <;> rfl

theorem V_v13 : (V m c main_v13 : S1x896.Idx → EReal)
    = shapeCast S1x896 (m ((c : Thread nD τ).loc main_arg9)) shapeCasts_S896_S1x896 := by
  dsimp only [Gen.V, Gen.hostOps0]; after_results <;> rfl

theorem V_v14 : (V m c main_v14 : S1x896.Idx → EReal)
    = shapeCast S1x896 (m ((c : Thread nD τ).loc main_arg10)) shapeCasts_S896_S1x896 := by
  dsimp only [Gen.V, Gen.hostOps0]; after_results <;> rfl

theorem V_v15 : (V m c main_v15 : S1x896.Idx → EReal)
    = shapeCast S1x896 (m ((c : Thread nD τ).loc main_arg11)) shapeCasts_S896_S1x896 := by
  dsimp only [Gen.V, Gen.hostOps0]; after_results <;> rfl

end Host

/-! ## The blocks read at an entry -/

section Reads
variable (c : Dev nD) (t : Fin cfg0.N)

/-- The array row that row `p` of grid point `t`'s blocks is: `512 t + p`. -/
abbrev rowOf (t : Fin cfg0.N) (p : Fin 512) : Fin 32768 :=
  ⟨t.val * 512 + p.val, by have := t.isLt; have hN : cfg0.N = 64 := N_0; have := p.isLt; omega⟩

/-- A vector recast as a one-row matrix, at (0, j): its entry j. -/
theorem rowCast_apply (v : S896.Idx → EReal) (j : Fin 896) :
    shapeCast S1x896 v shapeCasts_S896_S1x896 (ix2 (0 : Fin 1) j) = v (ix1 j) :=
  shapeCast_apply v shapeCasts_S896_S1x896 (ix2 (0 : Fin 1) j) (ix1 j) (by
    rw [Shape.rowMajor_val_one, Shape.rowMajor_val_two]; show j.val = 0 * 896 + j.val; omega)

theorem blk0_apply (p : Fin 512) (k : Fin 896) :
    (iblk m c 0 t : Vec Ideal S512x896 .f32) (ix2 p k)
      = (m ((c : Thread nD τ).loc main_arg0) : S32768x896.Idx → EReal) (ix2 (rowOf t p) k) := by
  obtain ⟨⟨h0, h1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = t.val * 512 + p.val; rw [h0]; omega
  | ⟨1, _⟩ => show win0_0.index t (1 : Fin 2) * 896 + 1 * k.val = k.val; rw [h1]; omega

theorem blk1_apply (p : Fin 512) (k : Fin 896) :
    (iblk m c 1 t : Vec Ideal S512x896 .f32) (ix2 p k)
      = (m ((c : Thread nD τ).loc main_arg1) : S32768x896.Idx → EReal) (ix2 (rowOf t p) k) := by
  obtain ⟨-, ⟨h0, h1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = t.val * 512 + p.val; rw [h0]; omega
  | ⟨1, _⟩ => show win0_1.index t (1 : Fin 2) * 896 + 1 * k.val = k.val; rw [h1]; omega

end Reads

end Cert.KernelIdeal.Blocks

end
-- ==== Proof.ArraySpec.lean ====
/-
  The result array as one function of the twelve argument arrays.

  Row r of the result is the row function (Proof/RowSpec.lean) of row r of the hidden states `x0` and of the features
  `x1`.  The weights enter as PyTorch stores them, (output entry, input entry): the value projection is rows
  1792 … 2687 of the packed input projection `x2` (bias: the same entries of `x3`); `x4, x5` the output projection;
  `x6, x7` and `x8, x9` the gate's two linear maps; `x10, x11` the LayerNorm's scale and shift.
-/
import proofs.«167850_j90941637526290_2_alg».proof.Proof.RowSpec
import Idealize.ShloMosaic.Lib.ValueIdx

noncomputable section

open Idealize.ShloMosaic Idealize.ShloMosaic.ValueIdx

namespace Cert.GateArray

/-- A rank-2 array of extended reals. -/
abbrev Arr2 (a b : ℕ) := (⟨2, ![a, b]⟩ : Shape).Idx → EReal
/-- A rank-1 array of extended reals. -/
abbrev Arr1 (a : ℕ) := (⟨1, ![a]⟩ : Shape).Idx → EReal

/-- Entry `j` of the value projection sits at entry `1792 + j` of the packed projection. -/
abbrev vOff (j : Fin 896) : Fin 2688 := ⟨1792 + j.val, by have := j.isLt; omega⟩

/-- The weights as (input entry, output entry) factors. -/
abbrev wv (x2 : Arr2 2688 896) : Fin 896 → Fin 896 → EReal := fun k j => x2 (ix2 (vOff j) k)
abbrev bv (x3 : Arr1 2688) : Fin 896 → EReal := fun j => x3 (ix1 (vOff j))
abbrev wT {a b : ℕ} (x : Arr2 a b) : Fin b → Fin a → EReal := fun k j => x (ix2 j k)
abbrev vec {a : ℕ} (x : Arr1 a) : Fin a → EReal := fun j => x (ix1 j)

/-- The result at row `r`, lane `q`. -/
def at_ (x0 x1 : Arr2 32768 896) (x2 : Arr2 2688 896) (x3 : Arr1 2688) (x4 : Arr2 896 896) (x5 : Arr1 896)
    (x6 : Arr2 896 1792) (x7 : Arr1 896) (x8 : Arr2 896 896) (x9 x10 x11 : Arr1 896) (r : Fin 32768) (q : Fin 896) : EReal :=
  GateRow.out (fun k => x0 (ix2 r k)) (fun k => x1 (ix2 r k)) (wv x2) (bv x3) (wT x4) (vec x5) (wT x6) (vec x7) (wT x8) (vec x9)
    (vec x10) (vec x11) q

/-- The result array. -/
def result (x0 x1 : Arr2 32768 896) (x2 : Arr2 2688 896) (x3 : Arr1 2688) (x4 : Arr2 896 896) (x5 : Arr1 896)
    (x6 : Arr2 896 1792) (x7 : Arr1 896) (x8 : Arr2 896 896) (x9 x10 x11 : Arr1 896) : Arr2 32768 896 :=
  fun i => at_ x0 x1 x2 x3 x4 x5 x6 x7 x8 x9 x10 x11 (i 0) (i 1)

end Cert.GateArray

end
-- ==== Proof.KernelWeights.lean ====
/-
  The resident blocks read at an entry.

  Every window but the two streamed ones stages a whole array, the same at every grid point: the transposed weights
  (entry (k, j) is the weight of input entry k in output entry j) and the bias rows.
-/
import proofs.«167850_j90941637526290_2_alg».proof.Proof.KernelBlocks
import proofs.«167850_j90941637526290_2_alg».proof.Proof.ArraySpec

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD) (t : Fin cfg0.N)

/-- The value projection's transposed weight: entry (k, j) is entry (1792 + j, k) of the packed projection. -/
theorem blk2_apply (k j : Fin 896) :
    (iblk m c 2 t : Vec Ideal S896x896 .bf16) (ix2 k j)
      = (m ((c : Thread nD τ).loc main_arg2) : S2688x896.Idx → EReal) (ix2 (GateArray.vOff j) k) := by
  obtain ⟨-, -, ⟨h0, h1⟩, -⟩ := idx_facts t
  unfold iblk
  rw [View.read_apply]
  show V m c main_v2 _ = _
  refine (congrArg (V m c main_v2) (funext fun a => Fin.ext ?_ : _ = (ix2 k j : S896x896.Idx))).trans ?_
  · match a with
    | ⟨0, _⟩ => show win0_2.index t (0 : Fin 2) * 896 + 1 * k.val = k.val; rw [h0]; omega
    | ⟨1, _⟩ => show win0_2.index t (1 : Fin 2) * 896 + 1 * j.val = j.val; rw [h1]; omega
  rw [V_v2, truncf_apply, transpose_ix2_apply]
  exact slice2_axis0_eq 1792 _ slices_S2688x896_S896x896_1792_0 j k

/-- The value projection's bias row: entry j is entry 1792 + j of the packed bias. -/
theorem blk3_apply (j : Fin 896) :
    (iblk m c 3 t : Vec Ideal S1x896 .f32) (ix2 (0 : Fin 1) j)
      = (m ((c : Thread nD τ).loc main_arg3) : S2688.Idx → EReal) (ix1 (GateArray.vOff j)) := by
  obtain ⟨-, -, -, ⟨h0, h1⟩, -⟩ := idx_facts t
  unfold iblk
  rw [View.read_apply]
  show V m c main_v4 _ = _
  refine (congrArg (V m c main_v4) (funext fun a => Fin.ext ?_ : _ = (ix2 (0 : Fin 1) j : S1x896.Idx))).trans ?_
  · match a with
    | ⟨0, _⟩ => show win0_3.index t (0 : Fin 2) * 1 + 1 * 0 = 0; rw [h0]
    | ⟨1, _⟩ => show win0_3.index t (1 : Fin 2) * 896 + 1 * j.val = j.val; rw [h1]; omega
  rw [V_v4, rowCast_apply]
  exact extractStridedSlice_apply ![1792] _ slices_S2688_S896_1792 (ix1 j) (ix1 (GateArray.vOff j)) (fun a => match a with | ⟨0, _⟩ => rfl)

/-! The other weights (transposed whole) and bias rows (recast whole). -/

theorem blk4_apply (k : Fin 896) (j : Fin 896) :
    (iblk m c 4 t : Vec Ideal S896x896 .bf16) (ix2 k j)
      = (m ((c : Thread nD τ).loc main_arg4) : S896x896.Idx → EReal) (ix2 j k) := by
  have hi : win0_4.index t (0 : Fin 2) = 0 ∧ win0_4.index t (1 : Fin 2) = 0 := by
    have := idx_facts t; tauto
  unfold iblk
  rw [View.read_apply]
  show V m c main_v6 _ = _
  refine (congrArg (V m c main_v6) (funext fun a => Fin.ext ?_ : _ = (ix2 k j : S896x896.Idx))).trans ?_
  · match a with
    | ⟨0, _⟩ => show win0_4.index t (0 : Fin 2) * 896 + 1 * k.val = k.val; rw [hi.1]; omega
    | ⟨1, _⟩ => show win0_4.index t (1 : Fin 2) * 896 + 1 * j.val = j.val; rw [hi.2]; omega
  rw [V_v6, truncf_apply, transpose_ix2_apply]

theorem blk5_apply (j : Fin 896) :
    (iblk m c 5 t : Vec Ideal S1x896 .f32) (ix2 (0 : Fin 1) j)
      = (m ((c : Thread nD τ).loc main_arg5) : S896.Idx → EReal) (ix1 j) := by
  have hi : win0_5.index t (0 : Fin 2) = 0 ∧ win0_5.index t (1 : Fin 2) = 0 := by
    have := idx_facts t; tauto
  unfold iblk
  rw [View.read_apply]
  show V m c main_v7 _ = _
  refine (congrArg (V m c main_v7) (funext fun a => Fin.ext ?_ : _ = (ix2 (0 : Fin 1) j : S1x896.Idx))).trans ?_
  · match a with
    | ⟨0, _⟩ => show win0_5.index t (0 : Fin 2) * 1 + 1 * 0 = 0; rw [hi.1]
    | ⟨1, _⟩ => show win0_5.index t (1 : Fin 2) * 896 + 1 * j.val = j.val; rw [hi.2]; omega
  rw [V_v7, rowCast_apply]

theorem blk6_apply (k : Fin 1792) (j : Fin 896) :
    (iblk m c 6 t : Vec Ideal S1792x896 .bf16) (ix2 k j)
      = (m ((c : Thread nD τ).loc main_arg6) : S896x1792.Idx → EReal) (ix2 j k) := by
  have hi : win0_6.index t (0 : Fin 2) = 0 ∧ win0_6.index t (1 : Fin 2) = 0 := by
    have := idx_facts t; tauto
  unfold iblk
  rw [View.read_apply]
  show V m c main_v9 _ = _
  refine (congrArg (V m c main_v9) (funext fun a => Fin.ext ?_ : _ = (ix2 k j : S1792x896.Idx))).trans ?_
  · match a with
    | ⟨0, _⟩ => show win0_6.index t (0 : Fin 2) * 1792 + 1 * k.val = k.val; rw [hi.1]; omega
    | ⟨1, _⟩ => show win0_6.index t (1 : Fin 2) * 896 + 1 * j.val = j.val; rw [hi.2]; omega
  rw [V_v9, truncf_apply, transpose_ix2_apply]

theorem blk7_apply (j : Fin 896) :
    (iblk m c 7 t : Vec Ideal S1x896 .f32) (ix2 (0 : Fin 1) j)
      = (m ((c : Thread nD τ).loc main_arg7) : S896.Idx → EReal) (ix1 j) := by
  have hi : win0_7.index t (0 : Fin 2) = 0 ∧ win0_7.index t (1 : Fin 2) = 0 := by
    have := idx_facts t; tauto
  unfold iblk
  rw [View.read_apply]
  show V m c main_v10 _ = _
  refine (congrArg (V m c main_v10) (funext fun a => Fin.ext ?_ : _ = (ix2 (0 : Fin 1) j : S1x896.Idx))).trans ?_
  · match a with
    | ⟨0, _⟩ => show win0_7.index t (0 : Fin 2) * 1 + 1 * 0 = 0; rw [hi.1]
    | ⟨1, _⟩ => show win0_7.index t (1 : Fin 2) * 896 + 1 * j.val = j.val; rw [hi.2]; omega
  rw [V_v10, rowCast_apply]

theorem blk8_apply (k : Fin 896) (j : Fin 896) :
    (iblk m c 8 t : Vec Ideal S896x896 .bf16) (ix2 k j)
      = (m ((c : Thread nD τ).loc main_arg8) : S896x896.Idx → EReal) (ix2 j k) := by
  have hi : win0_8.index t (0 : Fin 2) = 0 ∧ win0_8.index t (1 : Fin 2) = 0 := by
    have := idx_facts t; tauto
  unfold iblk
  rw [View.read_apply]
  show V m c main_v12 _ = _
  refine (congrArg (V m c main_v12) (funext fun a => Fin.ext ?_ : _ = (ix2 k j : S896x896.Idx))).trans ?_
  · match a with
    | ⟨0, _⟩ => show win0_8.index t (0 : Fin 2) * 896 + 1 * k.val = k.val; rw [hi.1]; omega
    | ⟨1, _⟩ => show win0_8.index t (1 : Fin 2) * 896 + 1 * j.val = j.val; rw [hi.2]; omega
  rw [V_v12, truncf_apply, transpose_ix2_apply]

theorem blk9_apply (j : Fin 896) :
    (iblk m c 9 t : Vec Ideal S1x896 .f32) (ix2 (0 : Fin 1) j)
      = (m ((c : Thread nD τ).loc main_arg9) : S896.Idx → EReal) (ix1 j) := by
  have hi : win0_9.index t (0 : Fin 2) = 0 ∧ win0_9.index t (1 : Fin 2) = 0 := by
    have := idx_facts t; tauto
  unfold iblk
  rw [View.read_apply]
  show V m c main_v13 _ = _
  refine (congrArg (V m c main_v13) (funext fun a => Fin.ext ?_ : _ = (ix2 (0 : Fin 1) j : S1x896.Idx))).trans ?_
  · match a with
    | ⟨0, _⟩ => show win0_9.index t (0 : Fin 2) * 1 + 1 * 0 = 0; rw [hi.1]
    | ⟨1, _⟩ => show win0_9.index t (1 : Fin 2) * 896 + 1 * j.val = j.val; rw [hi.2]; omega
  rw [V_v13, rowCast_apply]

theorem blk10_apply (j : Fin 896) :
    (iblk m c 10 t : Vec Ideal S1x896 .f32) (ix2 (0 : Fin 1) j)
      = (m ((c : Thread nD τ).loc main_arg10) : S896.Idx → EReal) (ix1 j) := by
  have hi : win0_10.index t (0 : Fin 2) = 0 ∧ win0_10.index t (1 : Fin 2) = 0 := by
    have := idx_facts t; tauto
  unfold iblk
  rw [View.read_apply]
  show V m c main_v14 _ = _
  refine (congrArg (V m c main_v14) (funext fun a => Fin.ext ?_ : _ = (ix2 (0 : Fin 1) j : S1x896.Idx))).trans ?_
  · match a with
    | ⟨0, _⟩ => show win0_10.index t (0 : Fin 2) * 1 + 1 * 0 = 0; rw [hi.1]
    | ⟨1, _⟩ => show win0_10.index t (1 : Fin 2) * 896 + 1 * j.val = j.val; rw [hi.2]; omega
  rw [V_v14, rowCast_apply]

theorem blk11_apply (j : Fin 896) :
    (iblk m c 11 t : Vec Ideal S1x896 .f32) (ix2 (0 : Fin 1) j)
      = (m ((c : Thread nD τ).loc main_arg11) : S896.Idx → EReal) (ix1 j) := by
  have hi : win0_11.index t (0 : Fin 2) = 0 ∧ win0_11.index t (1 : Fin 2) = 0 := by
    have := idx_facts t; tauto
  unfold iblk
  rw [View.read_apply]
  show V m c main_v15 _ = _
  refine (congrArg (V m c main_v15) (funext fun a => Fin.ext ?_ : _ = (ix2 (0 : Fin 1) j : S1x896.Idx))).trans ?_
  · match a with
    | ⟨0, _⟩ => show win0_11.index t (0 : Fin 2) * 1 + 1 * 0 = 0; rw [hi.1]
    | ⟨1, _⟩ => show win0_11.index t (1 : Fin 2) * 896 + 1 * j.val = j.val; rw [hi.2]; omega
  rw [V_v15, rowCast_apply]

end Cert.KernelIdeal.Blocks

end
-- ==== Proof.KernelArray.lean ====
/-
  From the blocks to the array: what the kernel's run leaves in its result.

  Grid point t writes back block t of ONE whole-array function, `GateArray.result` of the argument arrays: entry (p, q)
  of its stored block is the row function of row 512 t + p, and the 64 blocks tile the array: the block written back,
  membership in a block by coordinates, the cover, the array.
-/
import proofs.«167850_j90941637526290_2_alg».proof.Proof.KernelOut
import proofs.«167850_j90941637526290_2_alg».proof.Proof.KernelWeights

noncomputable section

namespace Cert.KernelIdeal.ArrayValue

open Cert.KernelIdeal Cert.KernelIdeal.Gen Idealize.ShloMosaic Idealize.ShloMosaic.TcCoe Idealize.SL.Sem Idealize.ShloMosaic.ValueIdx
open Cert.KernelIdeal.Blocks Cert.KernelIdeal.RowValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array on device `c`: the whole-array function of the argument arrays as launched. -/
def result (c : Dev nD) : Buf (Elt Ideal) ((c : Thread nD τ).loc main_v16) :=
  GateArray.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The block the body stores, for any loads, at entry `y`: the row function of row `y 0` of the two streamed blocks. -/
theorem out_apply (x0 x1 : FVec Ideal S512x896 .f32) (x2 : FVec Ideal S896x896 .bf16) (x3 : FVec Ideal S1x896 .f32)
    (x4 : FVec Ideal S896x896 .bf16) (x5 : FVec Ideal S1x896 .f32) (x6 : FVec Ideal S1792x896 .bf16) (x7 : FVec Ideal S1x896 .f32)
    (x8 : FVec Ideal S896x896 .bf16) (x9 x10 x11 : FVec Ideal S1x896 .f32) (p : Fin 512) (q : Fin 896) :
    out0_12 (F := Ideal) x0 x1 x2 x3 x4 x5 x6 x7 x8 x9 x10 x11 (ix2 p q)
      = GateRow.out (hRow x0 p) (fRow x1 p) (wOf x2) (bOf x3) (wOf x4) (bOf x5) (w1Of x6) (bOf x7) (wOf x8) (bOf x9) (bOf x10) (bOf x11) q := by
  unfold out0_12
  rw [Value.canon12_eq]
  simp only [View.ld_unit_zero (S := S512x896) hz, View.ld_unit_zero (S := S896x896) hz, View.ld_unit_zero (S := S1x896) hz,
    View.ld_unit_zero (S := S1792x896) hz]
  exact block_apply x0 x1 x2 x3 x4 x5 x6 x7 x8 x9 x10 x11 p q

/-- WHAT POINT `t` WRITES BACK is block `t` of the result array. -/
theorem flushed_eq (c : Dev nD) (t : Fin cfg0.N) :
    (dats m 0 c).flushed 12 t = ((cfg0.win 12).blk t).view.read (Elt Ideal) (result m c) := by
  have hi12 : win0_12.index t (0 : Fin 2) = t.val ∧ win0_12.index t (1 : Fin 2) = 0 := by
    have := idx_facts t; tauto
  rw [Value.flushed12]
  funext y
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = result m c (((cfg0.win 12).blk t).view.emb y)
  obtain ⟨p, q, rfl⟩ : ∃ (p : Fin 512) (q : Fin 896), y = ix2 p q := ⟨y 0, y 1, eq_ix2 y⟩
  have ei : ((cfg0.win 12).blk t).view.emb (ix2 p q) = (ix2 (rowOf t p) q : S32768x896.Idx) := funext fun a => Fin.ext (by
    match a with
    | ⟨0, _⟩ => show win0_12.index t (0 : Fin 2) * 512 + 1 * p.val = t.val * 512 + p.val; rw [hi12.1]; omega
    | ⟨1, _⟩ => show win0_12.index t (1 : Fin 2) * 896 + 1 * q.val = q.val; rw [hi12.2]; omega)
  rw [ei]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  have e0 : hRow (iblk m c 0 t) p = fun k => (m ((c : Thread nD τ).loc main_arg0) : S32768x896.Idx → EReal) (ix2 (rowOf t p) k) :=
    funext fun k => blk0_apply m c t p k
  have e1 : fRow (iblk m c 1 t) p = fun k => (m ((c : Thread nD τ).loc main_arg1) : S32768x896.Idx → EReal) (ix2 (rowOf t p) k) :=
    funext fun k => blk1_apply m c t p k
  have e2 : wOf (iblk m c 2 t) = GateArray.wv (m ((c : Thread nD τ).loc main_arg2)) := funext fun k => funext fun j => blk2_apply m c t k j
  have e3 : bOf (iblk m c 3 t) = GateArray.bv (m ((c : Thread nD τ).loc main_arg3)) := funext fun j => blk3_apply m c t j
  have e4 : wOf (iblk m c 4 t) = GateArray.wT (m ((c : Thread nD τ).loc main_arg4)) := funext fun k => funext fun j => blk4_apply m c t k j
  have e5 : bOf (iblk m c 5 t) = GateArray.vec (m ((c : Thread nD τ).loc main_arg5)) := funext fun j => blk5_apply m c t j
  have e6 : w1Of (iblk m c 6 t) = GateArray.wT (m ((c : Thread nD τ).loc main_arg6)) := funext fun k => funext fun j => blk6_apply m c t k j
  have e7 : bOf (iblk m c 7 t) = GateArray.vec (m ((c : Thread nD τ).loc main_arg7)) := funext fun j => blk7_apply m c t j
  have e8 : wOf (iblk m c 8 t) = GateArray.wT (m ((c : Thread nD τ).loc main_arg8)) := funext fun k => funext fun j => blk8_apply m c t k j
  have e9 : bOf (iblk m c 9 t) = GateArray.vec (m ((c : Thread nD τ).loc main_arg9)) := funext fun j => blk9_apply m c t j
  have e10 : bOf (iblk m c 10 t) = GateArray.vec (m ((c : Thread nD τ).loc main_arg10)) := funext fun j => blk10_apply m c t j
  have e11 : bOf (iblk m c 11 t) = GateArray.vec (m ((c : Thread nD τ).loc main_arg11)) := funext fun j => blk11_apply m c t j
  rw [e0, e1, e2, e3, e4, e5, e6, e7, e8, e9, e10, e11]
  rfl

/-- An index of the array is in point `t`'s block iff each coordinate is in the block's range on its axis. -/
theorem mem_blk (t : Fin cfg0.N) (i : S32768x896.Idx) :
    i ∈ ((cfg0.win 12).blk t).view.set ↔ ∀ a : Fin 2, win0_12.index t a * S512x896.size a ≤ (i a).val ∧ (i a).val < win0_12.index t a * S512x896.size a + S512x896.size a := by
  show i ∈ ((View.whole main_v16).slice (win0_12.rect t)).set ↔ _
  rw [View.set_slice_whole, Rect.mem_set_unit]
  exact Iff.rfl

/-- Every block row of the array is some grid point's. -/
theorem idx_onto : ∀ q0 : Fin 64, ∃ t : Fin cfg0.N, win0_12.index t = ![q0.val, 0] :=
  (by decide +kernel : ∀ q0 : Fin 64, ∃ t : Fin grid0.N, win0_12.index t = ![q0.val, 0])

/-- The 64 blocks cover the array: row r lies in the block of point r / 512. -/
theorem cover (c : Dev nD) (i : S32768x896.Idx) :
    ∃ t : Fin cfg0.N, (cfg0.win 12).flush t = true ∧ i ∈ ((cfg0.win 12).blk t).view.set := by
  have hi0 : (i 0).val < 32768 := (i 0).isLt
  have hi1 : (i 1).val < 896 := (i 1).isLt
  obtain ⟨t, ht⟩ := idx_onto ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 896 ≤ (i 1).val ∧ (i 1).val < win0_12.index t (1 : Fin 2) * 896 + 896; omega

/-- THE ARRAY after the run is the result function of the arguments. -/
theorem final (c : Dev nD) : (dats m 0 c).arrAt 12 cfg0.N = result m c :=
  (dats m 0 c).arrAt_eq_of_cover 12 (result m c) (fun t _ => flushed_eq m c t) (cover c)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.LibExtReal.lean ====
/-
  General facts about extended reals that are real numbers, and about the float literals this certificate meets.

  At the exact-real reading of floats the arithmetic laws that fail at the infinities (`x - x = 0`, cancelling a
  quotient) hold for the REAL extended reals; `IsReal` is that predicate, closed under sums, products, finite sums
  and quotients by a nonzero real.  With it: a softmax over ONE entry is the constant one.
-/
import Idealize.ShloMosaic.PureOps.Ideal
import Idealize.ShloMosaic.PureOps.Ideal.Laws

noncomputable section

open Idealize.ShloMosaic

namespace Cert.LibExtReal

/-- The extended real `x` is a real number (neither infinity). -/
def IsReal (x : EReal) : Prop := ∃ r : ℝ, x = (r : EReal)

theorem IsReal.coe (r : ℝ) : IsReal (r : EReal) := ⟨r, rfl⟩

theorem IsReal.zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A real divided by a nonzero real is real. -/
theorem IsReal.div_coe {x : EReal} (hx : IsReal x) {y : ℝ} (hy : y ≠ 0) : IsReal (Ideal.div x (y : EReal)) := by
  rw [Ideal.div_coe hy]; exact hx.mul ⟨_, rfl⟩

/-- A real minus itself is zero (false at the infinities). -/
theorem IsReal.sub_self {x : EReal} (hx : IsReal x) : x - x = 0 := by
  obtain ⟨a, rfl⟩ := hx
  rw [← EReal.coe_sub, _root_.sub_self]; rfl

/-- `e⁰ = 1`. -/
theorem exp_zero : Ideal.exp 0 = 1 := by
  show Ideal.exp ((0 : ℝ) : EReal) = 1
  rw [Ideal.exp_coe, Real.exp_zero]; rfl

/-- `1 / 1 = 1`. -/
theorem div_one_one : Ideal.div 1 1 = 1 := by
  have h := Ideal.div_coe (y := 1) one_ne_zero (1 : EReal)
  rw [EReal.coe_one] at h
  rw [h]; simp

/-- The f32 pattern of `1.0` denotes `1`. -/
theorem ofBits_one : Ideal.ofBits .f32 0x3F800000#32 = 1 := by
  simp [Ideal.ofBits, Ideal.ieee, -EReal.coe_mul]; norm_num

/-- The f32 pattern of `112.0` denotes the real `112`. -/
theorem ofBits_112 : Ideal.ofBits .f32 0x42E00000#32 = ((112 : ℝ) : EReal) := by
  simp [Ideal.ofBits, Ideal.ieee, -EReal.coe_mul]; norm_num

/-- The f32 pattern of `-inf` denotes `⊥`. -/
theorem ofBits_neg_inf : Ideal.ofBits .f32 0xFF800000#32 = ⊥ := by
  simp [Ideal.ofBits, Ideal.ieee]

/-- `√112` is a nonzero real. -/
theorem sqrt_112 : Ideal.sqrt (Ideal.ofBits .f32 0x42E00000#32) = ((Real.sqrt 112 : ℝ) : EReal) := by
  rw [ofBits_112, Ideal.sqrt_coe, if_neg (by norm_num)]

theorem sqrt_112_ne_zero : Real.sqrt 112 ≠ 0 := by
  rw [Ne, Real.sqrt_eq_zero']; norm_num

/-- A SOFTMAX OVER ONE ENTRY IS ONE: for a real score `s`, with the maximum taken from `-∞` over the one entry (and
    once more against `-∞`), `e^(s - max) / (0 + e^(s - max)) = 1`. -/
theorem softmax_single {s : EReal} (hs : IsReal s) :
    Ideal.div (Ideal.exp (s - max ⊥ (max s ⊥))) (0 + Ideal.exp (s - max ⊥ (max s ⊥))) = 1 := by
  rw [max_bot_right, max_bot_left, hs.sub_self, exp_zero, zero_add, div_one_one]

end Cert.LibExtReal

end
-- ==== Proof.RefScores.lean ====
/-
  The reference's attention weights are one.

  The reference computes, per row and head, a score (the inner product of the query and key head, divided by √112), and a
  softmax of it over the ONE key position.  For finite inputs the score is a real number, so the softmax is exactly one and
  the attention context is the value projection itself: `attention_eq`.
-/
import proofs.«167850_j90941637526290_2_alg».proof.Proof.RefRead
import proofs.«167850_j90941637526290_2_alg».proof.Proof.LibExtReal

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Cert.LibExtReal

variable (x0 x1 : (⟨S32768x896, .f32⟩ : BufTy).Contents (Elt Ideal)) (x2 : (⟨S2688x896, .f32⟩ : BufTy).Contents (Elt Ideal))
  (x3 : (⟨S2688, .f32⟩ : BufTy).Contents (Elt Ideal))

/-- The query projection of real inputs is real. -/
theorem query_real (hx0 : ∀ i, IsReal (x0 i)) (hx2 : ∀ i, IsReal (x2 i)) (hx3 : ∀ i, IsReal (x3 i)) (i : S32768x896.Idx) :
    IsReal (val_main_v6 (F := Ideal) x0 x2 x3 i) := by
  rw [val_main_v6_apply, val_main_v2_apply, val_main_v5_apply, val_main_v4_apply, val_main_v3_apply]
  refine IsReal.add (IsReal.sum _ _ fun k _ => (hx0 _).mul ?_) (hx3 _)
  rw [val_main_v1_apply, val_main_v0_apply]; exact hx2 _

/-- The key projection of real inputs is real. -/
theorem key_real (hx1 : ∀ i, IsReal (x1 i)) (hx2 : ∀ i, IsReal (x2 i)) (hx3 : ∀ i, IsReal (x3 i)) (i : S32768x896.Idx) :
    IsReal (val_main_v13 (F := Ideal) x1 x2 x3 i) := by
  rw [val_main_v13_apply, val_main_v9_apply, val_main_v12_apply, val_main_v11_apply, val_main_v10_apply]
  refine IsReal.add (IsReal.sum _ _ fun k _ => (hx1 _).mul ?_) (hx3 _)
  rw [val_main_v8_apply, val_main_v7_apply]; exact hx2 _

section
variable (hx0 : ∀ i, IsReal (x0 i)) (hx1 : ∀ i, IsReal (x1 i)) (hx2 : ∀ i, IsReal (x2 i)) (hx3 : ∀ i, IsReal (x3 i))
include hx0 hx1 hx2 hx3

/-- The score of a row and head is real: a finite sum of products of reals, over the nonzero real √112. -/
theorem score_real (i : S32768x8x1.Idx) : IsReal (val_main_v29 (F := Ideal) x0 x1 x2 x3 i) := by
  rw [val_main_v29_apply, val_main_v28_apply, val_main_v27_apply, val_main_cst_0_apply]
  show IsReal (Ideal.div _ (Ideal.sqrt (Ideal.ofBits .f32 0x42E00000#32)))
  rw [sqrt_112]
  refine IsReal.div_coe ?_ sqrt_112_ne_zero
  rw [val_main_v26_apply, val_main_v25_apply, val_main_cst_apply]
  refine IsReal.add ?_ (IsReal.sum _ _ fun k _ => ?_)
  · show IsReal (Ideal.ofBits .f32 0x00000000#32); rw [Ideal.ofBits_zero_f32]; exact IsReal.zero
  · rw [val_main_v24_apply, val_main_v21_apply, val_main_v22_apply]
    exact (query_real x0 x2 x3 hx0 hx2 hx3 _).mul (key_real x1 x2 x3 hx1 hx2 hx3 _)

end

/-- A fold of `max` over a one-element index type: the one entry against the start value. -/
theorem fold_max_fin_one (b : EReal) (f : Fin 1 → EReal) : (Finset.univ : Finset (Fin 1)).fold max b f = max (f 0) b := by
  rw [Finset.univ_unique, Finset.fold_singleton]; rfl

/-- The maximum over the one key position, taken from `-∞`. -/
theorem rowmax_apply (i : S32768x8x1.Idx) :
    val_main_v30 (F := Ideal) x0 x1 x2 x3 (idx_main_v33 i) = max (val_main_v29 (F := Ideal) x0 x1 x2 x3 i) ⊥ := by
  have hR : S32768x8x1.Reduces [2] S32768x8 := by decide
  unfold val_main_v30
  rw [Host.reduce_eq_fold_single FloatOps.maximumf _ _ reducesTo_S32768x8x1_S32768x8_d2 hR h_S_]
  refine (fold_max_fin_one _ _).trans ?_
  refine congrArg₂ max (congrArg (val_main_v29 (F := Ideal) x0 x1 x2 x3) (funext fun a => Fin.ext ?_)) ofBits_neg_inf
  have h2 : (i 2).val < 1 := (i 2).isLt
  match a with
  | ⟨0, _⟩ => rfl
  | ⟨1, _⟩ => rfl
  | ⟨2, _⟩ => show 0 = (i 2).val; omega

section
variable (hx0 : ∀ i, IsReal (x0 i)) (hx1 : ∀ i, IsReal (x1 i)) (hx2 : ∀ i, IsReal (x2 i)) (hx3 : ∀ i, IsReal (x3 i))
include hx0 hx1 hx2 hx3

/-- THE ATTENTION WEIGHT IS ONE. -/
theorem weight_one (i : S32768x8x1.Idx) : val_main_v38 (F := Ideal) x0 x1 x2 x3 i = 1 := by
  have h2 : (i 2).val < 1 := (i 2).isLt
  have e36 : idx_main_v36 (idx_main_v37 i) (0 : Fin 1) = i := funext fun a => Fin.ext (by
    match a with
    | ⟨0, _⟩ => rfl
    | ⟨1, _⟩ => rfl
    | ⟨2, _⟩ => show 0 = (i 2).val; omega)
  rw [val_main_v38_apply, val_main_v37_apply, val_main_v36_apply, val_main_cst_3_apply, Fin.sum_univ_one, e36,
    val_main_v35_apply, val_main_v34_apply, val_main_v33_apply, val_main_v32_apply, val_main_v31_apply, val_main_cst_2_apply,
    rowmax_apply]
  show Ideal.div (Ideal.exp (_ - max (Ideal.ofBits .f32 0xFF800000#32) _)) (Ideal.ofBits .f32 0x00000000#32 + _) = 1
  rw [ofBits_neg_inf, Ideal.ofBits_zero_f32]
  exact softmax_single (score_real x0 x1 x2 x3 hx0 hx1 hx2 hx3 i)

/-- So the attention context is the value projection. -/
theorem attention_eq (i : S32768x896.Idx) :
    val_main_v41 (F := Ideal) x0 x1 x2 x3 i = val_main_v20 (F := Ideal) x1 x2 x3 i := by
  rw [val_main_v41_apply, val_main_v40_apply, val_main_v39_apply, weight_one x0 x1 x2 x3 hx0 hx1 hx2 hx3, val_main_v23_apply]
  show 1 * _ = _
  rw [one_mul]
  refine congrArg _ (funext fun a => Fin.ext ?_)
  have h0 : (i 0).val < 32768 := (i 0).isLt
  have h1 : (i 1).val < 896 := (i 1).isLt
  match a with
  | ⟨0, _⟩ =>
    show ((((i 0).val * 896 + (i 1).val) / 896 * 8 + ((i 0).val * 896 + (i 1).val) / 112 % 8) * 112 + ((i 0).val * 896 + (i 1).val) % 112) / 896 = (i 0).val
    omega
  | ⟨1, _⟩ =>
    show ((((i 0).val * 896 + (i 1).val) / 896 * 8 + ((i 0).val * 896 + (i 1).val) / 112 % 8) * 112 + ((i 0).val * 896 + (i 1).val) % 112) % 896 = (i 1).val
    omega

end

end Cert.ReferenceIdeal.RefValue

end
-- ==== Proof.RefRowsA.lean ====
/-
  The reference, row by row: from the value projection to the gate's second affine map.

  At row r each stage of the reference is the row function's stage (Proof/RowSpec.lean) of row r of the hidden states and of
  the features.  A `dot_general` is read as a sum over the contracted axis, a transpose and a slice by their index maps, the
  concatenation by which operand a lane comes from, jax's expansion of the logistic by its definition.
-/
import proofs.«167850_j90941637526290_2_alg».proof.Proof.RefScores
import proofs.«167850_j90941637526290_2_alg».proof.Proof.ArraySpec

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Cert.LibExtReal
open Cert.GateArray (wv bv wT vec vOff)

variable (x0 x1 : (⟨S32768x896, .f32⟩ : BufTy).Contents (Elt Ideal)) (x2 : (⟨S2688x896, .f32⟩ : BufTy).Contents (Elt Ideal))
  (x3 : (⟨S2688, .f32⟩ : BufTy).Contents (Elt Ideal)) (x4 : (⟨S896x896, .f32⟩ : BufTy).Contents (Elt Ideal))
  (x5 : (⟨S896, .f32⟩ : BufTy).Contents (Elt Ideal)) (x6 : (⟨S896x1792, .f32⟩ : BufTy).Contents (Elt Ideal))
  (x7 : (⟨S896, .f32⟩ : BufTy).Contents (Elt Ideal)) (x8 : (⟨S896x896, .f32⟩ : BufTy).Contents (Elt Ideal))
  (x9 : (⟨S896, .f32⟩ : BufTy).Contents (Elt Ideal))

/-- The value projection at (r, j). -/
theorem value_apply (r : Fin 32768) (j : Fin 896) :
    val_main_v20 (F := Ideal) x1 x2 x3 (ix2 r j) = GateRow.value (fun k => x1 (ix2 r k)) (wv x2) (bv x3) j := by
  rw [val_main_v20_apply, val_main_v16_apply, val_main_v19_apply, val_main_v18_apply, val_main_v17_apply]
  show (∑ k : Fin 896, _) + _ = _
  unfold GateRow.value
  refine congrArg₂ (· + ·) (Finset.sum_congr rfl fun k _ => ?_) ?_
  · rw [val_main_v15_apply, val_main_v14_apply]
    refine congrArg₂ (· * ·) (congrArg x1 (funext fun a => ?_)) (congrArg x2 (funext fun a => ?_))
    · match a with | ⟨0, _⟩ => rfl | ⟨1, _⟩ => rfl
    · match a with | ⟨0, _⟩ => rfl | ⟨1, _⟩ => rfl
  · exact congrArg x3 (funext fun a => by match a with | ⟨0, _⟩ => rfl)

section
variable (hx0 : ∀ i, IsReal (x0 i)) (hx1 : ∀ i, IsReal (x1 i)) (hx2 : ∀ i, IsReal (x2 i)) (hx3 : ∀ i, IsReal (x3 i))
include hx0 hx1 hx2 hx3

/-- The attention output at (r, j). -/
theorem attn_apply (r : Fin 32768) (j : Fin 896) :
    val_main_v46 (F := Ideal) x0 x1 x2 x3 x4 x5 (ix2 r j) = GateRow.attn (fun k => x1 (ix2 r k)) (wv x2) (bv x3) (wT x4) (vec x5) j := by
  rw [val_main_v46_apply, val_main_v43_apply, val_main_v45_apply, val_main_v44_apply]
  show (∑ k : Fin 896, _) + _ = _
  unfold GateRow.attn
  refine congrArg₂ (· + ·) (Finset.sum_congr rfl fun k _ => ?_) ?_
  · have e : lidx_main_v43 (ix2 r j) k = ix2 r k := funext fun a => by match a with | ⟨0, _⟩ => rfl | ⟨1, _⟩ => rfl
    rw [e, attention_eq x0 x1 x2 x3 hx0 hx1 hx2 hx3, value_apply, val_main_v42_apply]
    exact congrArg (_ * ·) (congrArg x4 (funext fun a => by match a with | ⟨0, _⟩ => rfl | ⟨1, _⟩ => rfl))
  · exact congrArg x5 (funext fun a => by match a with | ⟨0, _⟩ => rfl)

/-- The hidden states and the attention output joined along the lanes, at (r, k). -/
theorem joined_apply (r : Fin 32768) (k : Fin 1792) :
    val_main_v47 (F := Ideal) x0 x1 x2 x3 x4 x5 (ix2 r k)
      = GateRow.joined (fun k => x0 (ix2 r k)) (fun k => x1 (ix2 r k)) (wv x2) (bv x3) (wT x4) (vec x5) k := by
  unfold val_main_v47 GateRow.joined
  by_cases hk : k.val < 896
  · rw [dif_pos hk]
    exact concatenate_pair_apply_left 1 x0 _ concatenates_S32768x896_S32768x896_S32768x1792_d1 (ix2 r k) rfl (ix2 r ⟨k.val, hk⟩)
      (fun c => match c with | ⟨0, _⟩ => rfl | ⟨1, _⟩ => rfl)
  · rw [dif_neg hk, ← attn_apply x0 x1 x2 x3 x4 x5 hx0 hx1 hx2 hx3]
    exact concatenate_pair_apply_right 1 x0 _ concatenates_S32768x896_S32768x896_S32768x1792_d1 (ix2 r k) rfl rfl
      (ix2 r ⟨k.val - 896, by have := k.isLt; omega⟩)
      (fun c => match c with | ⟨0, _⟩ => fun _ => rfl | ⟨1, _⟩ => fun h => absurd rfl h)
      (by show (k.val - 896) + 896 = k.val; omega)

/-- The gate's first affine map at (r, j). -/
theorem gate1_apply (r : Fin 32768) (j : Fin 896) :
    val_main_v52 (F := Ideal) x0 x1 x2 x3 x4 x5 x6 x7 (ix2 r j)
      = GateRow.gate1 (fun k => x0 (ix2 r k)) (fun k => x1 (ix2 r k)) (wv x2) (bv x3) (wT x4) (vec x5) (wT x6) (vec x7) j := by
  rw [val_main_v52_apply, val_main_v49_apply, val_main_v51_apply, val_main_v50_apply]
  show (∑ k : Fin 1792, _) + _ = _
  unfold GateRow.gate1
  refine congrArg₂ (· + ·) (Finset.sum_congr rfl fun k _ => ?_) ?_
  · have e : lidx_main_v49 (ix2 r j) k = ix2 r k := funext fun a => by match a with | ⟨0, _⟩ => rfl | ⟨1, _⟩ => rfl
    rw [e, joined_apply x0 x1 x2 x3 x4 x5 hx0 hx1 hx2 hx3, val_main_v48_apply]
    exact congrArg (_ * ·) (congrArg x6 (funext fun a => by match a with | ⟨0, _⟩ => rfl | ⟨1, _⟩ => rfl))
  · exact congrArg x7 (funext fun a => by match a with | ⟨0, _⟩ => rfl)

/-- SiLU of the first affine map at (r, j): jax spells the logistic as `1 / (1 + e^(-x))`. -/
theorem act_apply (r : Fin 32768) (j : Fin 896) :
    val_main_v53 (F := Ideal) x0 x1 x2 x3 x4 x5 x6 x7 (ix2 r j)
      = GateRow.act (fun k => x0 (ix2 r k)) (fun k => x1 (ix2 r k)) (wv x2) (bv x3) (wT x4) (vec x5) (wT x6) (vec x7) j := by
  rw [val_main_v53_apply, val_main_call0_v5_apply, val_main_call0_v4_apply, val_main_call0_cst_0_apply, val_main_call0_v3_apply,
    val_main_call0_v2_apply, val_main_call0_cst_apply, val_main_call0_v1_apply, val_main_call0_v0_apply,
    gate1_apply x0 x1 x2 x3 x4 x5 x6 x7 hx0 hx1 hx2 hx3]
  show _ * Ideal.div (Ideal.ofBits .f32 0x3F800000#32) (Ideal.ofBits .f32 0x3F800000#32 + Ideal.exp (-_)) = _
  rw [ofBits_one]
  rfl

/-- The gate's second affine map at (r, j). -/
theorem gate2_apply (r : Fin 32768) (j : Fin 896) :
    val_main_v58 (F := Ideal) x0 x1 x2 x3 x4 x5 x6 x7 x8 x9 (ix2 r j)
      = GateRow.gate2 (fun k => x0 (ix2 r k)) (fun k => x1 (ix2 r k)) (wv x2) (bv x3) (wT x4) (vec x5) (wT x6) (vec x7) (wT x8) (vec x9) j := by
  rw [val_main_v58_apply, val_main_v55_apply, val_main_v57_apply, val_main_v56_apply]
  show (∑ k : Fin 896, _) + _ = _
  unfold GateRow.gate2
  refine congrArg₂ (· + ·) (Finset.sum_congr rfl fun k _ => ?_) ?_
  · have e : lidx_main_v55 (ix2 r j) k = ix2 r k := funext fun a => by match a with | ⟨0, _⟩ => rfl | ⟨1, _⟩ => rfl
    rw [e, act_apply x0 x1 x2 x3 x4 x5 x6 x7 hx0 hx1 hx2 hx3, val_main_v54_apply]
    exact congrArg (_ * ·) (congrArg x8 (funext fun a => by match a with | ⟨0, _⟩ => rfl | ⟨1, _⟩ => rfl))
  · exact congrArg x9 (funext fun a => by match a with | ⟨0, _⟩ => rfl)

end

end Cert.ReferenceIdeal.RefValue

end
-- ==== Proof.RefRowsB.lean ====
/-
  The reference, row by row: the LayerNorm, the residual, and the whole array.

  The mean and the variance of a row are host sums over the row (from a zero initial value) divided by 896, broadcast back
  along the row; the result is the hidden state plus the normalized, scaled and shifted gate.  Index by index the
  reference's result is `GateArray.result` of its arguments.
-/
import proofs.«167850_j90941637526290_2_alg».proof.Proof.RefRowsA

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Cert.LibExtReal
open Cert.GateArray (wv bv wT vec vOff)

variable (x0 x1 : (⟨S32768x896, .f32⟩ : BufTy).Contents (Elt Ideal)) (x2 : (⟨S2688x896, .f32⟩ : BufTy).Contents (Elt Ideal))
  (x3 : (⟨S2688, .f32⟩ : BufTy).Contents (Elt Ideal)) (x4 : (⟨S896x896, .f32⟩ : BufTy).Contents (Elt Ideal))
  (x5 : (⟨S896, .f32⟩ : BufTy).Contents (Elt Ideal)) (x6 : (⟨S896x1792, .f32⟩ : BufTy).Contents (Elt Ideal))
  (x7 : (⟨S896, .f32⟩ : BufTy).Contents (Elt Ideal)) (x8 : (⟨S896x896, .f32⟩ : BufTy).Contents (Elt Ideal))
  (x9 x10 x11 : (⟨S896, .f32⟩ : BufTy).Contents (Elt Ideal))
  (hx0 : ∀ i, IsReal (x0 i)) (hx1 : ∀ i, IsReal (x1 i)) (hx2 : ∀ i, IsReal (x2 i)) (hx3 : ∀ i, IsReal (x3 i))
include hx0 hx1 hx2 hx3

/-- The row mean, at (r, 0) of the keepdims column. -/
theorem mean_apply (r : Fin 32768) :
    val_main_v62 (F := Ideal) x0 x1 x2 x3 x4 x5 x6 x7 x8 x9 (ix2 r (0 : Fin 1)) = GateRow.mean (fun k => x0 (ix2 r k)) (fun k => x1 (ix2 r k)) (wv x2) (bv x3) (wT x4) (vec x5) (wT x6) (vec x7) (wT x8) (vec x9) := by
  rw [val_main_v62_apply, val_main_v60_apply, val_main_v59_apply, val_main_v61_apply, val_main_cst_5_apply, val_main_cst_4_apply]
  show Ideal.div (Ideal.ofBits .f32 0x00000000#32 + ∑ k : Fin 896, _) (Ideal.ofBits .f32 0x44600000#32) = _
  rw [Ideal.ofBits_zero_f32, zero_add]
  unfold GateRow.mean
  refine congrArg (Ideal.div · _) (Finset.sum_congr rfl fun k _ => ?_)
  have e : idx_main_v59 (idx_main_v60 (ix2 r (0 : Fin 1))) k = ix2 r k := funext fun a => by match a with | ⟨0, _⟩ => rfl | ⟨1, _⟩ => rfl
  rw [e, gate2_apply x0 x1 x2 x3 x4 x5 x6 x7 x8 x9 hx0 hx1 hx2 hx3]

/-- The gate minus its row mean (as the variance reads it), at (r, k). -/
theorem centred_apply (r : Fin 32768) (k : Fin 896) :
    val_main_v64 (F := Ideal) x0 x1 x2 x3 x4 x5 x6 x7 x8 x9 (ix2 r k) = GateRow.gate2 (fun k => x0 (ix2 r k)) (fun k => x1 (ix2 r k)) (wv x2) (bv x3) (wT x4) (vec x5) (wT x6) (vec x7) (wT x8) (vec x9) k - GateRow.mean (fun k => x0 (ix2 r k)) (fun k => x1 (ix2 r k)) (wv x2) (bv x3) (wT x4) (vec x5) (wT x6) (vec x7) (wT x8) (vec x9) := by
  have e : idx_main_v63 (ix2 r k) = ix2 r (0 : Fin 1) := funext fun a => by match a with | ⟨0, _⟩ => rfl | ⟨1, _⟩ => rfl
  rw [val_main_v64_apply, val_main_v63_apply, e, gate2_apply x0 x1 x2 x3 x4 x5 x6 x7 x8 x9 hx0 hx1 hx2 hx3, mean_apply x0 x1 x2 x3 x4 x5 x6 x7 x8 x9 hx0 hx1 hx2 hx3]
  rfl

/-- The gate minus its row mean (as the normalization reads it), at (r, k). -/
theorem centred'_apply (r : Fin 32768) (k : Fin 896) :
    val_main_v71 (F := Ideal) x0 x1 x2 x3 x4 x5 x6 x7 x8 x9 (ix2 r k) = GateRow.gate2 (fun k => x0 (ix2 r k)) (fun k => x1 (ix2 r k)) (wv x2) (bv x3) (wT x4) (vec x5) (wT x6) (vec x7) (wT x8) (vec x9) k - GateRow.mean (fun k => x0 (ix2 r k)) (fun k => x1 (ix2 r k)) (wv x2) (bv x3) (wT x4) (vec x5) (wT x6) (vec x7) (wT x8) (vec x9) := by
  have e : idx_main_v70 (ix2 r k) = ix2 r (0 : Fin 1) := funext fun a => by match a with | ⟨0, _⟩ => rfl | ⟨1, _⟩ => rfl
  rw [val_main_v71_apply, val_main_v70_apply, e, gate2_apply x0 x1 x2 x3 x4 x5 x6 x7 x8 x9 hx0 hx1 hx2 hx3, mean_apply x0 x1 x2 x3 x4 x5 x6 x7 x8 x9 hx0 hx1 hx2 hx3]
  rfl

/-- The row variance, at (r, 0) of the keepdims column. -/
theorem variance_apply (r : Fin 32768) :
    val_main_v69 (F := Ideal) x0 x1 x2 x3 x4 x5 x6 x7 x8 x9 (ix2 r (0 : Fin 1)) = GateRow.variance (fun k => x0 (ix2 r k)) (fun k => x1 (ix2 r k)) (wv x2) (bv x3) (wT x4) (vec x5) (wT x6) (vec x7) (wT x8) (vec x9) := by
  rw [val_main_v69_apply, val_main_v67_apply, val_main_v66_apply, val_main_v68_apply, val_main_cst_7_apply, val_main_cst_6_apply]
  show Ideal.div (Ideal.ofBits .f32 0x00000000#32 + ∑ k : Fin 896, _) (Ideal.ofBits .f32 0x44600000#32) = _
  rw [Ideal.ofBits_zero_f32, zero_add]
  unfold GateRow.variance
  refine congrArg (Ideal.div · _) (Finset.sum_congr rfl fun k _ => ?_)
  have e : idx_main_v66 (idx_main_v67 (ix2 r (0 : Fin 1))) k = ix2 r k := funext fun a => by match a with | ⟨0, _⟩ => rfl | ⟨1, _⟩ => rfl
  rw [e, val_main_v65_apply, centred_apply x0 x1 x2 x3 x4 x5 x6 x7 x8 x9 hx0 hx1 hx2 hx3]
  rfl

/-- The result at (r, j). -/
theorem out_apply (r : Fin 32768) (j : Fin 896) :
    val_main_v83 (F := Ideal) x0 x1 x2 x3 x4 x5 x6 x7 x8 x9 x10 x11 (ix2 r j) = GateArray.at_ x0 x1 x2 x3 x4 x5 x6 x7 x8 x9 x10 x11 r j := by
  have e75 : idx_main_v75 (ix2 r j) = ix2 r (0 : Fin 1) := funext fun a => by match a with | ⟨0, _⟩ => rfl | ⟨1, _⟩ => rfl
  have e10 : idx_main_v77 (idx_main_v78 (ix2 r j)) = ix1 j := funext fun a => by match a with | ⟨0, _⟩ => rfl
  have e11 : idx_main_v80 (idx_main_v81 (ix2 r j)) = ix1 j := funext fun a => by match a with | ⟨0, _⟩ => rfl
  rw [val_main_v83_apply, val_main_v82_apply, val_main_v79_apply, val_main_v76_apply, val_main_v75_apply, val_main_v74_apply,
    val_main_v73_apply, val_main_v72_apply, val_main_cst_8_apply, val_main_v78_apply, val_main_v77_apply, val_main_v81_apply,
    val_main_v80_apply, e75, e10, e11, centred'_apply x0 x1 x2 x3 x4 x5 x6 x7 x8 x9 hx0 hx1 hx2 hx3, variance_apply x0 x1 x2 x3 x4 x5 x6 x7 x8 x9 hx0 hx1 hx2 hx3]
  rfl

/-- THE REFERENCE'S RESULT is the result function of its arguments. -/
theorem result_eq : val_main_v83 (F := Ideal) x0 x1 x2 x3 x4 x5 x6 x7 x8 x9 x10 x11 = GateArray.result x0 x1 x2 x3 x4 x5 x6 x7 x8 x9 x10 x11 := by
  funext i
  obtain ⟨r, q, rfl⟩ : ∃ (r : Fin 32768) (q : Fin 896), i = ix2 r q := ⟨i 0, i 1, eq_ix2 i⟩
  exact out_apply x0 x1 x2 x3 x4 x5 x6 x7 x8 x9 x10 x11 hx0 hx1 hx2 hx3 r q

end Cert.ReferenceIdeal.RefValue

end
-- ==== Proof.RefRun.lean ====
/-
  The reference program's run, read back.

  @main of the reference is a straight line of 102 host operations.  Every weakly fair execution of it terminates with each
  buffer at the fold of the operations' results over the launch contents; this module reads that fold at the result buffer as
  the composed stages of Proof/RefRead.lean (`val_main_v83` of the argument arrays), and at each argument buffer as the
  argument itself.  The fold is read in five stretches — up to the attention output, the concatenation, the gate's first
  affine map, jax's `silu` (the one called function, inlined), the rest — each stretch's result being the stage of what the
  stretch found.
-/
import proofs.«167850_j90941637526290_2_alg».proof.Proof.RefRead
import proofs.«167850_j90941637526290_2_alg».proof.Proof.RefOps
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The 102 operations, in five stretches -/

/-- Up to the attention output `%46`. -/
abbrev opsA : List (HloOp τ sig (Elt F)) :=
  [ unary main_arg2 main_v0 ((extractStridedSlice S896x896 ![0, 0] · slices_S2688x896_S896x896_0_0) : (⟨S2688x896, .f32⟩ : BufTy).Contents (Elt F) → (⟨S896x896, .f32⟩ : BufTy).Contents (Elt F)),
    unary main_v0 main_v1 ((transpose S896x896 [1, 0] · transposes_S896x896_S896x896_1_0) : (⟨S896x896, .f32⟩ : BufTy).Contents (Elt F) → (⟨S896x896, .f32⟩ : BufTy).Contents (Elt F)),
    binary main_arg0 main_v1 main_v2 ((fun l r => Host.dotGeneral dot_S32768x896_S896x896_S32768x896_1_0_0_1_n_n none l r) : (⟨S32768x896, .f32⟩ : BufTy).Contents (Elt F) → (⟨S896x896, .f32⟩ : BufTy).Contents (Elt F) → (⟨S32768x896, .f32⟩ : BufTy).Contents (Elt F)),
    unary main_arg3 main_v3 ((extractStridedSlice S896 ![0] · slices_S2688_S896_0) : (⟨S2688, .f32⟩ : BufTy).Contents (Elt F) → (⟨S896, .f32⟩ : BufTy).Contents (Elt F)),
    unary main_v3 main_v4 (broadcastInDim S1x896 ![1] bcast_S896_S1x896_1 : (⟨S896, .f32⟩ : BufTy).Contents (Elt F) → (⟨S1x896, .f32⟩ : BufTy).Contents (Elt F)),
    unary main_v4 main_v5 (broadcastInDim S32768x896 ![0, 1] bcast_S1x896_S32768x896_0_1 : (⟨S1x896, .f32⟩ : BufTy).Contents (Elt F) → (⟨S32768x896, .f32⟩ : BufTy).Contents (Elt F)),
    binary main_v2 main_v5 main_v6 (addf : (⟨S32768x896, .f32⟩ : BufTy).Contents (Elt F) → (⟨S32768x896, .f32⟩ : BufTy).Contents (Elt F) → (⟨S32768x896, .f32⟩ : BufTy).Contents (Elt F)),
    unary main_arg2 main_v7 ((extractStridedSlice S896x896 ![896, 0] · slices_S2688x896_S896x896_896_0) : (⟨S2688x896, .f32⟩ : BufTy).Contents (Elt F) → (⟨S896x896, .f32⟩ : BufTy).Contents (Elt F)),
    unary main_v7 main_v8 ((transpose S896x896 [1, 0] · transposes_S896x896_S896x896_1_0) : (⟨S896x896, .f32⟩ : BufTy).Contents (Elt F) → (⟨S896x896, .f32⟩ : BufTy).Contents (Elt F)),
    binary main_arg1 main_v8 main_v9 ((fun l r => Host.dotGeneral dot_S32768x896_S896x896_S32768x896_1_0_0_1_n_n none l r) : (⟨S32768x896, .f32⟩ : BufTy).Contents (Elt F) → (⟨S896x896, .f32⟩ : BufTy).Contents (Elt F) → (⟨S32768x896, .f32⟩ : BufTy).Contents (Elt F)),
    unary main_arg3 main_v10 ((extractStridedSlice S896 ![896] · slices_S2688_S896_896) : (⟨S2688, .f32⟩ : BufTy).Contents (Elt F) → (⟨S896, .f32⟩ : BufTy).Contents (Elt F)),
    unary main_v10 main_v11 (broadcastInDim S1x896 ![1] bcast_S896_S1x896_1 : (⟨S896, .f32⟩ : BufTy).Contents (Elt F) → (⟨S1x896, .f32⟩ : BufTy).Contents (Elt F)),
    unary main_v11 main_v12 (broadcastInDim S32768x896 ![0, 1] bcast_S1x896_S32768x896_0_1 : (⟨S1x896, .f32⟩ : BufTy).Contents (Elt F) → (⟨S32768x896, .f32⟩ : BufTy).Contents (Elt F)),
    binary main_v9 main_v12 main_v13 (addf : (⟨S32768x896, .f32⟩ : BufTy).Contents (Elt F) → (⟨S32768x896, .f32⟩ : BufTy).Contents (Elt F) → (⟨S32768x896, .f32⟩ : BufTy).Contents (Elt F)),
    unary main_arg2 main_v14 ((extractStridedSlice S896x896 ![1792, 0] · slices_S2688x896_S896x896_1792_0) : (⟨S2688x896, .f32⟩ : BufTy).Contents (Elt F) → (⟨S896x896, .f32⟩ : BufTy).Contents (Elt F)),
    unary main_v14 main_v15 ((transpose S896x896 [1, 0] · transposes_S896x896_S896x896_1_0) : (⟨S896x896, .f32⟩ : BufTy).Contents (Elt F) → (⟨S896x896, .f32⟩ : BufTy).Contents (Elt F)),
    binary main_arg1 main_v15 main_v16 ((fun l r => Host.dotGeneral dot_S32768x896_S896x896_S32768x896_1_0_0_1_n_n none l r) : (⟨S32768x896, .f32⟩ : BufTy).Contents (Elt F) → (⟨S896x896, .f32⟩ : BufTy).Contents (Elt F) → (⟨S32768x896, .f32⟩ : BufTy).Contents (Elt F)),
    unary main_arg3 main_v17 ((extractStridedSlice S896 ![1792] · slices_S2688_S896_1792) : (⟨S2688, .f32⟩ : BufTy).Contents (Elt F) → (⟨S896, .f32⟩ : BufTy).Contents (Elt F)),
    unary main_v17 main_v18 (broadcastInDim S1x896 ![1] bcast_S896_S1x896_1 : (⟨S896, .f32⟩ : BufTy).Contents (Elt F) → (⟨S1x896, .f32⟩ : BufTy).Contents (Elt F)),
    unary main_v18 main_v19 (broadcastInDim S32768x896 ![0, 1] bcast_S1x896_S32768x896_0_1 : (⟨S1x896, .f32⟩ : BufTy).Contents (Elt F) → (⟨S32768x896, .f32⟩ : BufTy).Contents (Elt F)),
    binary main_v16 main_v19 main_v20 (addf : (⟨S32768x896, .f32⟩ : BufTy).Contents (Elt F) → (⟨S32768x896, .f32⟩ : BufTy).Contents (Elt F) → (⟨S32768x896, .f32⟩ : BufTy).Contents (Elt F)),
    reshape main_v6 main_v21 rfl shapeCasts_S32768x896_S32768x8x112,
    reshape main_v13 main_v22 rfl shapeCasts_S32768x896_S32768x8x112,
    reshape main_v20 main_v23 rfl shapeCasts_S32768x896_S32768x8x112,
    binary main_v21 main_v22 main_v24 (mulf : (⟨S32768x8x112, .f32⟩ : BufTy).Contents (Elt F) → (⟨S32768x8x112, .f32⟩ : BufTy).Contents (Elt F) → (⟨S32768x8x112, .f32⟩ : BufTy).Contents (Elt F)),
    nullary main_cst (constant S_ .f32 0x00000000#32),
    binary main_v24 main_cst main_v25 ((fun x v => Host.reduceAdd x v reducesTo_S32768x8x112_S32768x8_d2 h_S_) : (⟨S32768x8x112, .f32⟩ : BufTy).Contents (Elt F) → (⟨S_, .f32⟩ : BufTy).Contents (Elt F) → (⟨S32768x8, .f32⟩ : BufTy).Contents (Elt F)),
    unary main_v25 main_v26 (broadcastInDim S32768x8x1 ![0, 1] bcast_S32768x8_S32768x8x1_0_1 : (⟨S32768x8, .f32⟩ : BufTy).Contents (Elt F) → (⟨S32768x8x1, .f32⟩ : BufTy).Contents (Elt F)),
    nullary main_cst_0 (constant S_ .f32 0x42E00000#32),
    unary main_cst_0 main_v27 (Host.sqrt : (⟨S_, .f32⟩ : BufTy).Contents (Elt F) → (⟨S_, .f32⟩ : BufTy).Contents (Elt F)),
    unary main_v27 main_v28 (broadcastInDim S32768x8x1 ![] bcast_S_S32768x8x1 : (⟨S_, .f32⟩ : BufTy).Contents (Elt F) → (⟨S32768x8x1, .f32⟩ : BufTy).Contents (Elt F)),
    binary main_v26 main_v28 main_v29 (Host.divf : (⟨S32768x8x1, .f32⟩ : BufTy).Contents (Elt F) → (⟨S32768x8x1, .f32⟩ : BufTy).Contents (Elt F) → (⟨S32768x8x1, .f32⟩ : BufTy).Contents (Elt F)),
    nullary main_cst_1 (constant S_ .f32 0xFF800000#32),
    binary main_v29 main_cst_1 main_v30 ((fun x v => Host.reduce FloatOps.maximumf x v reducesTo_S32768x8x1_S32768x8_d2 h_S_) : (⟨S32768x8x1, .f32⟩ : BufTy).Contents (Elt F) → (⟨S_, .f32⟩ : BufTy).Contents (Elt F) → (⟨S32768x8, .f32⟩ : BufTy).Contents (Elt F)),
    nullary main_cst_2 (constant S_ .f32 0xFF800000#32),
    unary main_cst_2 main_v31 (broadcastInDim S32768x8 ![] bcast_S_S32768x8 : (⟨S_, .f32⟩ : BufTy).Contents (Elt F) → (⟨S32768x8, .f32⟩ : BufTy).Contents (Elt F)),
    binary main_v31 main_v30 main_v32 (maximumf : (⟨S32768x8, .f32⟩ : BufTy).Contents (Elt F) → (⟨S32768x8, .f32⟩ : BufTy).Contents (Elt F) → (⟨S32768x8, .f32⟩ : BufTy).Contents (Elt F)),
    unary main_v32 main_v33 (broadcastInDim S32768x8x1 ![0, 1] bcast_S32768x8_S32768x8x1_0_1 : (⟨S32768x8, .f32⟩ : BufTy).Contents (Elt F) → (⟨S32768x8x1, .f32⟩ : BufTy).Contents (Elt F)),
    binary main_v29 main_v33 main_v34 (subf : (⟨S32768x8x1, .f32⟩ : BufTy).Contents (Elt F) → (⟨S32768x8x1, .f32⟩ : BufTy).Contents (Elt F) → (⟨S32768x8x1, .f32⟩ : BufTy).Contents (Elt F)),
    unary main_v34 main_v35 (Host.exp : (⟨S32768x8x1, .f32⟩ : BufTy).Contents (Elt F) → (⟨S32768x8x1, .f32⟩ : BufTy).Contents (Elt F)),
    nullary main_cst_3 (constant S_ .f32 0x00000000#32),
    binary main_v35 main_cst_3 main_v36 ((fun x v => Host.reduceAdd x v reducesTo_S32768x8x1_S32768x8_d2 h_S_) : (⟨S32768x8x1, .f32⟩ : BufTy).Contents (Elt F) → (⟨S_, .f32⟩ : BufTy).Contents (Elt F) → (⟨S32768x8, .f32⟩ : BufTy).Contents (Elt F)),
    unary main_v36 main_v37 (broadcastInDim S32768x8x1 ![0, 1] bcast_S32768x8_S32768x8x1_0_1 : (⟨S32768x8, .f32⟩ : BufTy).Contents (Elt F) → (⟨S32768x8x1, .f32⟩ : BufTy).Contents (Elt F)),
    binary main_v35 main_v37 main_v38 (Host.divf : (⟨S32768x8x1, .f32⟩ : BufTy).Contents (Elt F) → (⟨S32768x8x1, .f32⟩ : BufTy).Contents (Elt F) → (⟨S32768x8x1, .f32⟩ : BufTy).Contents (Elt F)),
    unary main_v38 main_v39 (broadcastInDim S32768x8x112 ![0, 1, 2] bcast_S32768x8x1_S32768x8x112_0_1_2 : (⟨S32768x8x1, .f32⟩ : BufTy).Contents (Elt F) → (⟨S32768x8x112, .f32⟩ : BufTy).Contents (Elt F)),
    binary main_v39 main_v23 main_v40 (mulf : (⟨S32768x8x112, .f32⟩ : BufTy).Contents (Elt F) → (⟨S32768x8x112, .f32⟩ : BufTy).Contents (Elt F) → (⟨S32768x8x112, .f32⟩ : BufTy).Contents (Elt F)),
    reshape main_v40 main_v41 rfl shapeCasts_S32768x8x112_S32768x896,
    unary main_arg4 main_v42 ((transpose S896x896 [1, 0] · transposes_S896x896_S896x896_1_0) : (⟨S896x896, .f32⟩ : BufTy).Contents (Elt F) → (⟨S896x896, .f32⟩ : BufTy).Contents (Elt F)),
    binary main_v41 main_v42 main_v43 ((fun l r => Host.dotGeneral dot_S32768x896_S896x896_S32768x896_1_0_0_1_n_n none l r) : (⟨S32768x896, .f32⟩ : BufTy).Contents (Elt F) → (⟨S896x896, .f32⟩ : BufTy).Contents (Elt F) → (⟨S32768x896, .f32⟩ : BufTy).Contents (Elt F)),
    unary main_arg5 main_v44 (broadcastInDim S1x896 ![1] bcast_S896_S1x896_1 : (⟨S896, .f32⟩ : BufTy).Contents (Elt F) → (⟨S1x896, .f32⟩ : BufTy).Contents (Elt F)),
    unary main_v44 main_v45 (broadcastInDim S32768x896 ![0, 1] bcast_S1x896_S32768x896_0_1 : (⟨S1x896, .f32⟩ : BufTy).Contents (Elt F) → (⟨S32768x896, .f32⟩ : BufTy).Contents (Elt F)),
    binary main_v43 main_v45 main_v46 (addf : (⟨S32768x896, .f32⟩ : BufTy).Contents (Elt F) → (⟨S32768x896, .f32⟩ : BufTy).Contents (Elt F) → (⟨S32768x896, .f32⟩ : BufTy).Contents (Elt F)) ]

/-- The concatenation `%47`. -/
abbrev opCat : HloOp τ sig (Elt F) :=
  binary main_arg0 main_v46 main_v47 ((fun a b => concatenate S32768x1792 1 [⟨S32768x896, a⟩, ⟨S32768x896, b⟩] concatenates_S32768x896_S32768x896_S32768x1792_d1) : (⟨S32768x896, .f32⟩ : BufTy).Contents (Elt F) → (⟨S32768x896, .f32⟩ : BufTy).Contents (Elt F) → (⟨S32768x1792, .f32⟩ : BufTy).Contents (Elt F))

/-- The gate's first affine map, `%48 … %52`. -/
abbrev opsB1 : List (HloOp τ sig (Elt F)) :=
  [ unary main_arg6 main_v48 ((transpose S1792x896 [1, 0] · transposes_S896x1792_S1792x896_1_0) : (⟨S896x1792, .f32⟩ : BufTy).Contents (Elt F) → (⟨S1792x896, .f32⟩ : BufTy).Contents (Elt F)),
    binary main_v47 main_v48 main_v49 ((fun l r => Host.dotGeneral dot_S32768x1792_S1792x896_S32768x896_1_0_0_1_n_n none l r) : (⟨S32768x1792, .f32⟩ : BufTy).Contents (Elt F) → (⟨S1792x896, .f32⟩ : BufTy).Contents (Elt F) → (⟨S32768x896, .f32⟩ : BufTy).Contents (Elt F)),
    unary main_arg7 main_v50 (broadcastInDim S1x896 ![1] bcast_S896_S1x896_1 : (⟨S896, .f32⟩ : BufTy).Contents (Elt F) → (⟨S1x896, .f32⟩ : BufTy).Contents (Elt F)),
    unary main_v50 main_v51 (broadcastInDim S32768x896 ![0, 1] bcast_S1x896_S32768x896_0_1 : (⟨S1x896, .f32⟩ : BufTy).Contents (Elt F) → (⟨S32768x896, .f32⟩ : BufTy).Contents (Elt F)),
    binary main_v49 main_v51 main_v52 (addf : (⟨S32768x896, .f32⟩ : BufTy).Contents (Elt F) → (⟨S32768x896, .f32⟩ : BufTy).Contents (Elt F) → (⟨S32768x896, .f32⟩ : BufTy).Contents (Elt F)) ]

/-- jax's `silu`, inlined at its call: `%53`. -/
abbrev opsCall : List (HloOp τ sig (Elt F)) :=
  [ TRef.unary (TRef.of (T := ⟨S32768x896, .f32⟩) main_v52) (TRef.of (T := ⟨S32768x896, .f32⟩) main_call0_v0) Host.negf,
    TRef.unary (TRef.of (T := ⟨S32768x896, .f32⟩) main_call0_v0) (TRef.of (T := ⟨S32768x896, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32768x896, .f32⟩) main_call0_v2) (broadcastInDim S32768x896 ![] bcast_S_S32768x896),
    TRef.binary (TRef.of (T := ⟨S32768x896, .f32⟩) main_call0_v2) (TRef.of (T := ⟨S32768x896, .f32⟩) main_call0_v1) (TRef.of (T := ⟨S32768x896, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32768x896, .f32⟩) main_call0_v4) (broadcastInDim S32768x896 ![] bcast_S_S32768x896),
    TRef.binary (TRef.of (T := ⟨S32768x896, .f32⟩) main_call0_v4) (TRef.of (T := ⟨S32768x896, .f32⟩) main_call0_v3) (TRef.of (T := ⟨S32768x896, .f32⟩) main_call0_v5) Host.divf,
    TRef.binary (TRef.of (T := ⟨S32768x896, .f32⟩) main_v52) (TRef.of (T := ⟨S32768x896, .f32⟩) main_call0_v5) (TRef.of (T := ⟨S32768x896, .f32⟩) main_v53) mulf ]

/-- The rest: the second affine map, the LayerNorm, the residual. -/
abbrev opsB2 : List (HloOp τ sig (Elt F)) :=
  [ unary main_arg8 main_v54 ((transpose S896x896 [1, 0] · transposes_S896x896_S896x896_1_0) : (⟨S896x896, .f32⟩ : BufTy).Contents (Elt F) → (⟨S896x896, .f32⟩ : BufTy).Contents (Elt F)),
    binary main_v53 main_v54 main_v55 ((fun l r => Host.dotGeneral dot_S32768x896_S896x896_S32768x896_1_0_0_1_n_n none l r) : (⟨S32768x896, .f32⟩ : BufTy).Contents (Elt F) → (⟨S896x896, .f32⟩ : BufTy).Contents (Elt F) → (⟨S32768x896, .f32⟩ : BufTy).Contents (Elt F)),
    unary main_arg9 main_v56 (broadcastInDim S1x896 ![1] bcast_S896_S1x896_1 : (⟨S896, .f32⟩ : BufTy).Contents (Elt F) → (⟨S1x896, .f32⟩ : BufTy).Contents (Elt F)),
    unary main_v56 main_v57 (broadcastInDim S32768x896 ![0, 1] bcast_S1x896_S32768x896_0_1 : (⟨S1x896, .f32⟩ : BufTy).Contents (Elt F) → (⟨S32768x896, .f32⟩ : BufTy).Contents (Elt F)),
    binary main_v55 main_v57 main_v58 (addf : (⟨S32768x896, .f32⟩ : BufTy).Contents (Elt F) → (⟨S32768x896, .f32⟩ : BufTy).Contents (Elt F) → (⟨S32768x896, .f32⟩ : BufTy).Contents (Elt F)),
    nullary main_cst_4 (constant S_ .f32 0x00000000#32),
    binary main_v58 main_cst_4 main_v59 ((fun x v => Host.reduceAdd x v reducesTo_S32768x896_S32768_d1 h_S_) : (⟨S32768x896, .f32⟩ : BufTy).Contents (Elt F) → (⟨S_, .f32⟩ : BufTy).Contents (Elt F) → (⟨S32768, .f32⟩ : BufTy).Contents (Elt F)),
    unary main_v59 main_v60 (broadcastInDim S32768x1 ![0] bcast_S32768_S32768x1_0 : (⟨S32768, .f32⟩ : BufTy).Contents (Elt F) → (⟨S32768x1, .f32⟩ : BufTy).Contents (Elt F)),
    nullary main_cst_5 (constant S_ .f32 0x44600000#32),
    unary main_cst_5 main_v61 (broadcastInDim S32768x1 ![] bcast_S_S32768x1 : (⟨S_, .f32⟩ : BufTy).Contents (Elt F) → (⟨S32768x1, .f32⟩ : BufTy).Contents (Elt F)),
    binary main_v60 main_v61 main_v62 (Host.divf : (⟨S32768x1, .f32⟩ : BufTy).Contents (Elt F) → (⟨S32768x1, .f32⟩ : BufTy).Contents (Elt F) → (⟨S32768x1, .f32⟩ : BufTy).Contents (Elt F)),
    unary main_v62 main_v63 (broadcastInDim S32768x896 ![0, 1] bcast_S32768x1_S32768x896_0_1 : (⟨S32768x1, .f32⟩ : BufTy).Contents (Elt F) → (⟨S32768x896, .f32⟩ : BufTy).Contents (Elt F)),
    binary main_v58 main_v63 main_v64 (subf : (⟨S32768x896, .f32⟩ : BufTy).Contents (Elt F) → (⟨S32768x896, .f32⟩ : BufTy).Contents (Elt F) → (⟨S32768x896, .f32⟩ : BufTy).Contents (Elt F)),
    binary main_v64 main_v64 main_v65 (mulf : (⟨S32768x896, .f32⟩ : BufTy).Contents (Elt F) → (⟨S32768x896, .f32⟩ : BufTy).Contents (Elt F) → (⟨S32768x896, .f32⟩ : BufTy).Contents (Elt F)),
    nullary main_cst_6 (constant S_ .f32 0x00000000#32),
    binary main_v65 main_cst_6 main_v66 ((fun x v => Host.reduceAdd x v reducesTo_S32768x896_S32768_d1 h_S_) : (⟨S32768x896, .f32⟩ : BufTy).Contents (Elt F) → (⟨S_, .f32⟩ : BufTy).Contents (Elt F) → (⟨S32768, .f32⟩ : BufTy).Contents (Elt F)),
    unary main_v66 main_v67 (broadcastInDim S32768x1 ![0] bcast_S32768_S32768x1_0 : (⟨S32768, .f32⟩ : BufTy).Contents (Elt F) → (⟨S32768x1, .f32⟩ : BufTy).Contents (Elt F)),
    nullary main_cst_7 (constant S_ .f32 0x44600000#32),
    unary main_cst_7 main_v68 (broadcastInDim S32768x1 ![] bcast_S_S32768x1 : (⟨S_, .f32⟩ : BufTy).Contents (Elt F) → (⟨S32768x1, .f32⟩ : BufTy).Contents (Elt F)),
    binary main_v67 main_v68 main_v69 (Host.divf : (⟨S32768x1, .f32⟩ : BufTy).Contents (Elt F) → (⟨S32768x1, .f32⟩ : BufTy).Contents (Elt F) → (⟨S32768x1, .f32⟩ : BufTy).Contents (Elt F)),
    unary main_v62 main_v70 (broadcastInDim S32768x896 ![0, 1] bcast_S32768x1_S32768x896_0_1 : (⟨S32768x1, .f32⟩ : BufTy).Contents (Elt F) → (⟨S32768x896, .f32⟩ : BufTy).Contents (Elt F)),
    binary main_v58 main_v70 main_v71 (subf : (⟨S32768x896, .f32⟩ : BufTy).Contents (Elt F) → (⟨S32768x896, .f32⟩ : BufTy).Contents (Elt F) → (⟨S32768x896, .f32⟩ : BufTy).Contents (Elt F)),
    nullary main_cst_8 (constant S_ .f32 0x3727C5AC#32),
    unary main_cst_8 main_v72 (broadcastInDim S32768x1 ![] bcast_S_S32768x1 : (⟨S_, .f32⟩ : BufTy).Contents (Elt F) → (⟨S32768x1, .f32⟩ : BufTy).Contents (Elt F)),
    binary main_v69 main_v72 main_v73 (addf : (⟨S32768x1, .f32⟩ : BufTy).Contents (Elt F) → (⟨S32768x1, .f32⟩ : BufTy).Contents (Elt F) → (⟨S32768x1, .f32⟩ : BufTy).Contents (Elt F)),
    unary main_v73 main_v74 (Host.rsqrt : (⟨S32768x1, .f32⟩ : BufTy).Contents (Elt F) → (⟨S32768x1, .f32⟩ : BufTy).Contents (Elt F)),
    unary main_v74 main_v75 (broadcastInDim S32768x896 ![0, 1] bcast_S32768x1_S32768x896_0_1 : (⟨S32768x1, .f32⟩ : BufTy).Contents (Elt F) → (⟨S32768x896, .f32⟩ : BufTy).Contents (Elt F)),
    binary main_v71 main_v75 main_v76 (mulf : (⟨S32768x896, .f32⟩ : BufTy).Contents (Elt F) → (⟨S32768x896, .f32⟩ : BufTy).Contents (Elt F) → (⟨S32768x896, .f32⟩ : BufTy).Contents (Elt F)),
    unary main_arg10 main_v77 (broadcastInDim S1x896 ![1] bcast_S896_S1x896_1 : (⟨S896, .f32⟩ : BufTy).Contents (Elt F) → (⟨S1x896, .f32⟩ : BufTy).Contents (Elt F)),
    unary main_v77 main_v78 (broadcastInDim S32768x896 ![0, 1] bcast_S1x896_S32768x896_0_1 : (⟨S1x896, .f32⟩ : BufTy).Contents (Elt F) → (⟨S32768x896, .f32⟩ : BufTy).Contents (Elt F)),
    binary main_v76 main_v78 main_v79 (mulf : (⟨S32768x896, .f32⟩ : BufTy).Contents (Elt F) → (⟨S32768x896, .f32⟩ : BufTy).Contents (Elt F) → (⟨S32768x896, .f32⟩ : BufTy).Contents (Elt F)),
    unary main_arg11 main_v80 (broadcastInDim S1x896 ![1] bcast_S896_S1x896_1 : (⟨S896, .f32⟩ : BufTy).Contents (Elt F) → (⟨S1x896, .f32⟩ : BufTy).Contents (Elt F)),
    unary main_v80 main_v81 (broadcastInDim S32768x896 ![0, 1] bcast_S1x896_S32768x896_0_1 : (⟨S1x896, .f32⟩ : BufTy).Contents (Elt F) → (⟨S32768x896, .f32⟩ : BufTy).Contents (Elt F)),
    binary main_v79 main_v81 main_v82 (addf : (⟨S32768x896, .f32⟩ : BufTy).Contents (Elt F) → (⟨S32768x896, .f32⟩ : BufTy).Contents (Elt F) → (⟨S32768x896, .f32⟩ : BufTy).Contents (Elt F)),
    binary main_arg0 main_v82 main_v83 (addf : (⟨S32768x896, .f32⟩ : BufTy).Contents (Elt F) → (⟨S32768x896, .f32⟩ : BufTy).Contents (Elt F) → (⟨S32768x896, .f32⟩ : BufTy).Contents (Elt F)) ]

theorem ops_eq : (ops : List (HloOp τ sig (Elt F))) = opsA ++ opCat :: (opsB1 ++ (opsCall ++ opsB2)) := rfl

/-- The fold over two stretches is the fold over the second from the fold over the first. -/
theorem after_append (l1 l2 : List (HloOp τ sig (Elt F))) (V : Valuation τ sig (Elt F)) :
    after (l1 ++ l2) V = after l2 (after l1 V) := by
  induction l1 generalizing V with
  | nil => rfl
  | cons op l ih => exact ih _

/-! ## Each stretch, read -/

set_option maxRecDepth 65536 in
set_option maxHeartbeats 4000000 in
/-- The first stretch leaves the attention output's stage of the arguments. -/
theorem stretchA (V : Valuation τ sig (Elt F)) :
    after (opsA (F := F)) V (Proc.devRef .tc main_v46)
      = ReadP.val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  simp only [ReadP.val_main_v0, ReadP.val_main_v1, ReadP.val_main_v2, ReadP.val_main_v3, ReadP.val_main_v4, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_v16, ReadP.val_main_v17, ReadP.val_main_v18, ReadP.val_main_v19, ReadP.val_main_v20, ReadP.val_main_v21, ReadP.val_main_v22, ReadP.val_main_v23, ReadP.val_main_v24, ReadP.val_main_cst, ReadP.val_main_v25, ReadP.val_main_v26, ReadP.val_main_cst_0, ReadP.val_main_v27, ReadP.val_main_v28, ReadP.val_main_v29, ReadP.val_main_cst_1, ReadP.val_main_v30, ReadP.val_main_cst_2, ReadP.val_main_v31, ReadP.val_main_v32, ReadP.val_main_v33, ReadP.val_main_v34, ReadP.val_main_v35, ReadP.val_main_cst_3, ReadP.val_main_v36, ReadP.val_main_v37, ReadP.val_main_v38, ReadP.val_main_v39, ReadP.val_main_v40, ReadP.val_main_v41, ReadP.val_main_v42, ReadP.val_main_v43, ReadP.val_main_v44, ReadP.val_main_v45, ReadP.val_main_v46]
  all_goals rfl

set_option maxRecDepth 65536 in
set_option maxHeartbeats 4000000 in
theorem stretchA_arg0 (W : Valuation τ sig (Elt F)) : after (opsA (F := F)) W (Proc.devRef .tc main_arg0) = W (Proc.devRef .tc main_arg0) := by after_results_simp
theorem stretchA_arg6 (W : Valuation τ sig (Elt F)) : after (opsA (F := F)) W (Proc.devRef .tc main_arg6) = W (Proc.devRef .tc main_arg6) := by after_results_simp
theorem stretchA_arg7 (W : Valuation τ sig (Elt F)) : after (opsA (F := F)) W (Proc.devRef .tc main_arg7) = W (Proc.devRef .tc main_arg7) := by after_results_simp
theorem stretchA_arg8 (W : Valuation τ sig (Elt F)) : after (opsA (F := F)) W (Proc.devRef .tc main_arg8) = W (Proc.devRef .tc main_arg8) := by after_results_simp
theorem stretchA_arg9 (W : Valuation τ sig (Elt F)) : after (opsA (F := F)) W (Proc.devRef .tc main_arg9) = W (Proc.devRef .tc main_arg9) := by after_results_simp
theorem stretchA_arg10 (W : Valuation τ sig (Elt F)) : after (opsA (F := F)) W (Proc.devRef .tc main_arg10) = W (Proc.devRef .tc main_arg10) := by after_results_simp
theorem stretchA_arg11 (W : Valuation τ sig (Elt F)) : after (opsA (F := F)) W (Proc.devRef .tc main_arg11) = W (Proc.devRef .tc main_arg11) := by after_results_simp

/-- The concatenation of the hidden states and the attention output. -/
theorem cat_v47 (W : Valuation τ sig (Elt F)) :
    (opCat (F := F)).result W (Proc.devRef .tc main_v47)
      = concatenate S32768x1792 1 [⟨S32768x896, W (Proc.devRef .tc main_arg0)⟩, ⟨S32768x896, W (Proc.devRef .tc main_v46)⟩] concatenates_S32768x896_S32768x896_S32768x1792_d1 := by
  after_results_simp
theorem cat_arg0 (W : Valuation τ sig (Elt F)) : (opCat (F := F)).result W (Proc.devRef .tc main_arg0) = W (Proc.devRef .tc main_arg0) := by after_results_simp
theorem cat_arg6 (W : Valuation τ sig (Elt F)) : (opCat (F := F)).result W (Proc.devRef .tc main_arg6) = W (Proc.devRef .tc main_arg6) := by after_results_simp
theorem cat_arg7 (W : Valuation τ sig (Elt F)) : (opCat (F := F)).result W (Proc.devRef .tc main_arg7) = W (Proc.devRef .tc main_arg7) := by after_results_simp
theorem cat_arg8 (W : Valuation τ sig (Elt F)) : (opCat (F := F)).result W (Proc.devRef .tc main_arg8) = W (Proc.devRef .tc main_arg8) := by after_results_simp
theorem cat_arg9 (W : Valuation τ sig (Elt F)) : (opCat (F := F)).result W (Proc.devRef .tc main_arg9) = W (Proc.devRef .tc main_arg9) := by after_results_simp
theorem cat_arg10 (W : Valuation τ sig (Elt F)) : (opCat (F := F)).result W (Proc.devRef .tc main_arg10) = W (Proc.devRef .tc main_arg10) := by after_results_simp
theorem cat_arg11 (W : Valuation τ sig (Elt F)) : (opCat (F := F)).result W (Proc.devRef .tc main_arg11) = W (Proc.devRef .tc main_arg11) := by after_results_simp

section
variable (x0 x1 : (⟨S32768x896, .f32⟩ : BufTy).Contents (Elt F)) (x2 : (⟨S2688x896, .f32⟩ : BufTy).Contents (Elt F)) (x3 : (⟨S2688, .f32⟩ : BufTy).Contents (Elt F)) (x4 : (⟨S896x896, .f32⟩ : BufTy).Contents (Elt F)) (x5 : (⟨S896, .f32⟩ : BufTy).Contents (Elt F)) (x6 : (⟨S896x1792, .f32⟩ : BufTy).Contents (Elt F)) (x7 : (⟨S896, .f32⟩ : BufTy).Contents (Elt F)) (x8 : (⟨S896x896, .f32⟩ : BufTy).Contents (Elt F)) (x9 x10 x11 : (⟨S896, .f32⟩ : BufTy).Contents (Elt F))

theorem stretchB1 (W : Valuation τ sig (Elt F))
    (h47 : W (Proc.devRef .tc main_v47) = ReadP.val_main_v47 (F := F) x0 x1 x2 x3 x4 x5)
    (h6 : W (Proc.devRef .tc main_arg6) = x6) (h7 : W (Proc.devRef .tc main_arg7) = x7) :
    after (opsB1 (F := F)) W (Proc.devRef .tc main_v52) = ReadP.val_main_v52 (F := F) x0 x1 x2 x3 x4 x5 x6 x7 := by
  after_results_simp
  rw [h47, h6, h7]
  simp only [ReadP.val_main_v48, ReadP.val_main_v49, ReadP.val_main_v50, ReadP.val_main_v51, ReadP.val_main_v52]
  all_goals rfl
end

theorem stretchB1_arg0 (W : Valuation τ sig (Elt F)) : after (opsB1 (F := F)) W (Proc.devRef .tc main_arg0) = W (Proc.devRef .tc main_arg0) := by after_results_simp
theorem stretchB1_arg8 (W : Valuation τ sig (Elt F)) : after (opsB1 (F := F)) W (Proc.devRef .tc main_arg8) = W (Proc.devRef .tc main_arg8) := by after_results_simp
theorem stretchB1_arg9 (W : Valuation τ sig (Elt F)) : after (opsB1 (F := F)) W (Proc.devRef .tc main_arg9) = W (Proc.devRef .tc main_arg9) := by after_results_simp
theorem stretchB1_arg10 (W : Valuation τ sig (Elt F)) : after (opsB1 (F := F)) W (Proc.devRef .tc main_arg10) = W (Proc.devRef .tc main_arg10) := by after_results_simp
theorem stretchB1_arg11 (W : Valuation τ sig (Elt F)) : after (opsB1 (F := F)) W (Proc.devRef .tc main_arg11) = W (Proc.devRef .tc main_arg11) := by after_results_simp

/-- jax's `silu` of a block: `y * (1 / (1 + e^(-y)))`. -/
def siluFn (y : (⟨S32768x896, .f32⟩ : BufTy).Contents (Elt F)) : (⟨S32768x896, .f32⟩ : BufTy).Contents (Elt F) :=
  mulf y (Host.divf (broadcastInDim S32768x896 ![] bcast_S_S32768x896 (constant (F := F) S_ .f32 0x3F800000#32))
    (addf (broadcastInDim S32768x896 ![] bcast_S_S32768x896 (constant (F := F) S_ .f32 0x3F800000#32)) (Host.exp (Host.negf y))))

theorem stretchCall (W : Valuation τ sig (Elt F)) :
    after (opsCall (F := F)) W (Proc.devRef .tc main_v53) = siluFn (F := F) (W (Proc.devRef .tc main_v52)) := by
  after_results <;> rfl

theorem stretchCall_arg0 (W : Valuation τ sig (Elt F)) : after (opsCall (F := F)) W (Proc.devRef .tc main_arg0) = W (Proc.devRef .tc main_arg0) := by after_results_simp
theorem stretchCall_arg8 (W : Valuation τ sig (Elt F)) : after (opsCall (F := F)) W (Proc.devRef .tc main_arg8) = W (Proc.devRef .tc main_arg8) := by after_results_simp
theorem stretchCall_arg9 (W : Valuation τ sig (Elt F)) : after (opsCall (F := F)) W (Proc.devRef .tc main_arg9) = W (Proc.devRef .tc main_arg9) := by after_results_simp
theorem stretchCall_arg10 (W : Valuation τ sig (Elt F)) : after (opsCall (F := F)) W (Proc.devRef .tc main_arg10) = W (Proc.devRef .tc main_arg10) := by after_results_simp
theorem stretchCall_arg11 (W : Valuation τ sig (Elt F)) : after (opsCall (F := F)) W (Proc.devRef .tc main_arg11) = W (Proc.devRef .tc main_arg11) := by after_results_simp

section
variable (x0 x1 : (⟨S32768x896, .f32⟩ : BufTy).Contents (Elt F)) (x2 : (⟨S2688x896, .f32⟩ : BufTy).Contents (Elt F)) (x3 : (⟨S2688, .f32⟩ : BufTy).Contents (Elt F)) (x4 : (⟨S896x896, .f32⟩ : BufTy).Contents (Elt F)) (x5 : (⟨S896, .f32⟩ : BufTy).Contents (Elt F)) (x6 : (⟨S896x1792, .f32⟩ : BufTy).Contents (Elt F)) (x7 : (⟨S896, .f32⟩ : BufTy).Contents (Elt F)) (x8 : (⟨S896x896, .f32⟩ : BufTy).Contents (Elt F)) (x9 x10 x11 : (⟨S896, .f32⟩ : BufTy).Contents (Elt F))

theorem v53_eq : ReadP.val_main_v53 (F := F) x0 x1 x2 x3 x4 x5 x6 x7 = siluFn (F := F) (ReadP.val_main_v52 (F := F) x0 x1 x2 x3 x4 x5 x6 x7) := rfl

theorem v47_eq : ReadP.val_main_v47 (F := F) x0 x1 x2 x3 x4 x5
    = concatenate S32768x1792 1 [⟨S32768x896, x0⟩, ⟨S32768x896, ReadP.val_main_v46 (F := F) x0 x1 x2 x3 x4 x5⟩] concatenates_S32768x896_S32768x896_S32768x1792_d1 := rfl

set_option maxRecDepth 65536 in
set_option maxHeartbeats 4000000 in
theorem stretchB2 (W : Valuation τ sig (Elt F))
    (h53 : W (Proc.devRef .tc main_v53) = ReadP.val_main_v53 (F := F) x0 x1 x2 x3 x4 x5 x6 x7)
    (h0 : W (Proc.devRef .tc main_arg0) = x0) (h8 : W (Proc.devRef .tc main_arg8) = x8) (h9 : W (Proc.devRef .tc main_arg9) = x9)
    (h10 : W (Proc.devRef .tc main_arg10) = x10) (h11 : W (Proc.devRef .tc main_arg11) = x11) :
    after (opsB2 (F := F)) W (Proc.devRef .tc main_v83) = ReadP.val_main_v83 (F := F) x0 x1 x2 x3 x4 x5 x6 x7 x8 x9 x10 x11 := by
  after_results_simp
  rw [h53, h0, h8, h9, h10, h11]
  simp only [ReadP.val_main_v54, ReadP.val_main_v55, ReadP.val_main_v56, ReadP.val_main_v57, ReadP.val_main_v58, ReadP.val_main_cst_4, ReadP.val_main_v59, ReadP.val_main_v60, ReadP.val_main_cst_5, ReadP.val_main_v61, ReadP.val_main_v62, ReadP.val_main_v63, ReadP.val_main_v64, ReadP.val_main_v65, ReadP.val_main_cst_6, ReadP.val_main_v66, ReadP.val_main_v67, ReadP.val_main_cst_7, ReadP.val_main_v68, ReadP.val_main_v69, ReadP.val_main_v70, ReadP.val_main_v71, ReadP.val_main_cst_8, ReadP.val_main_v72, ReadP.val_main_v73, ReadP.val_main_v74, ReadP.val_main_v75, ReadP.val_main_v76, ReadP.val_main_v77, ReadP.val_main_v78, ReadP.val_main_v79, ReadP.val_main_v80, ReadP.val_main_v81, ReadP.val_main_v82, ReadP.val_main_v83]
  all_goals rfl
end

/-! ## The whole line -/

/-- THE RESULT BUFFER after the 102 operations: the last stage, of the arguments' contents. -/
theorem result_eq (V : Valuation τ sig (Elt F)) :
    after (ops (F := F)) V (Proc.devRef .tc main_v83)
      = ReadP.val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq, after_append, after_cons, after_append, after_append]
  refine stretchB2 _ _ _ _ _ _ _ _ _ _ _ _ _ ?_ ?_ ?_ ?_ ?_ ?_
  · rw [stretchCall, v53_eq]
    refine congrArg siluFn ?_
    refine stretchB1 _ _ _ _ _ _ _ _ _ ?_ ?_ ?_
    · rw [cat_v47, v47_eq, stretchA, stretchA_arg0]
    · rw [cat_arg6, stretchA_arg6]
    · rw [cat_arg7, stretchA_arg7]
  · rw [stretchCall_arg0, stretchB1_arg0, cat_arg0, stretchA_arg0]
  · rw [stretchCall_arg8, stretchB1_arg8, cat_arg8, stretchA_arg8]
  · rw [stretchCall_arg9, stretchB1_arg9, cat_arg9, stretchA_arg9]
  · rw [stretchCall_arg10, stretchB1_arg10, cat_arg10, stretchA_arg10]
  · rw [stretchCall_arg11, stretchB1_arg11, cat_arg11, stretchA_arg11]

set_option maxRecDepth 65536 in
set_option maxHeartbeats 40800000 in
/-- Every weakly fair execution of @main terminates with the result buffer at the last stage of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = ReadP.val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v83).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RunP

end
-- ==== Proof.PreFinite.lean ====
/-
  What the precondition says: every entry of the inputs the scores depend on is a real number.

  The precondition is the conjunction, over the twelve inputs, of `all (|x| < +∞)`.  Read back at the four inputs the
  attention scores are computed from — the hidden states, the features, the packed projection and its bias — it says that
  each of their entries is neither infinity.
-/
import proofs.«167850_j90941637526290_2_alg».proof.Pre_finite_inputs
import proofs.«167850_j90941637526290_2_alg».proof.Proof.LibExtReal
import Idealize.ShloMosaic.Lib.ReduceAll
import Idealize.ShloMosaic.Lib.ValueIdx

noncomputable section

namespace Cert.Pre_finite_inputs.Finite

open Cert.Pre_finite_inputs Idealize.ShloMosaic Cert.LibExtReal

variable [Facts]
open Facts

instance : Subsingleton S_.Idx := ⟨fun a b => funext fun d => d.elim0⟩

theorem and1 : ∀ (a b : BitVec 1), IntOp.andi a b = 1#1 ↔ a = 1#1 ∧ b = 1#1 := by decide

/-- The f32 pattern of `+inf` denotes `⊤`. -/
theorem ofBits_pos_inf : Ideal.ofBits .f32 0x7F800000#32 = ⊤ := by
  simp [Ideal.ofBits, Ideal.ieee]

/-- An extended real whose absolute value is below `+∞` is a real number. -/
theorem real_of_abs_lt {x : EReal} (h : Ideal.cmp .olt (max x (-x)) (Ideal.ofBits .f32 0x7F800000#32) = 1#1) : IsReal x := by
  rw [ofBits_pos_inf] at h
  unfold Ideal.cmp at h
  have hlt : max x (-x) < ⊤ := by
    by_contra hc
    simp [hc] at h
  induction x using EReal.rec with
  | bot => simp at hlt
  | top => simp at hlt
  | coe r => exact IsReal.coe r

/-- THE PRECONDITION READ BACK at the first four inputs. -/
theorem pre_real (x0 x1 : FVec Ideal S32768x896 .f32) (x2 : FVec Ideal S2688x896 .f32) (x3 : FVec Ideal S2688 .f32)
    (x4 : FVec Ideal S896x896 .f32) (x5 : FVec Ideal S896 .f32) (x6 : FVec Ideal S896x1792 .f32) (x7 : FVec Ideal S896 .f32)
    (x8 : FVec Ideal S896x896 .f32) (x9 x10 x11 : FVec Ideal S896 .f32)
    (h : fn (F := Ideal) x0 x1 x2 x3 x4 x5 x6 x7 x8 x9 x10 x11 = fun _ => 1#1) :
    (∀ i, IsReal (x0 i)) ∧ (∀ i, IsReal (x1 i)) ∧ (∀ i, IsReal (x2 i)) ∧ (∀ i, IsReal (x3 i)) := by
  have e := congrFun h ValueIdx.ix0
  unfold fn fn_part1 fn_part2 fn_part3 at e
  simp only [andi] at e
  simp only [and1] at e
  obtain ⟨⟨⟨⟨⟨⟨⟨⟨⟨⟨⟨h0, h1⟩, h2⟩, h3⟩, -⟩, -⟩, -⟩, -⟩, -⟩, -⟩, -⟩, -⟩ := e
  refine ⟨fun i => real_of_abs_lt ?_, fun i => real_of_abs_lt ?_, fun i => real_of_abs_lt ?_, fun i => real_of_abs_lt ?_⟩
  · exact Host.reduce_andi_all _ _ _ _ _ h0 i
  · exact Host.reduce_andi_all _ _ _ _ _ h1 i
  · exact Host.reduce_andi_all _ _ _ _ _ h2 i
  · exact Host.reduce_andi_all _ _ _ _ _ h3 i

end Cert.Pre_finite_inputs.Finite

end
-- ==== Proof.lean ====
/-
  The kernel and its jnp reference compute the same array on the extended reals.

  Both programs map the hidden states, the features and the weights to
  `h + LayerNorm (W2 · silu (W1 · [h, attn] + b1) + b2)`, row by row (`GateRow.out`, `GateArray.result`).  The reference
  also forms queries, keys, and a softmax over the single key position; for finite inputs each score is a real number, the
  softmax is exactly one, and the attention output is the output projection of the value projection — which is all the kernel
  computes (Proof/RefScores.lean; this is the one place the precondition is used).  The kernel works on 64 blocks of 512
  rows; block t of its result is block t of the same whole-array function, and the blocks tile the array
  (Proof/KernelArray.lean).  The idealization rewrote no operation, so `preserves` is trivial; the three frames are the
  programs' runs with the value forgotten.
-/
import proofs.«167850_j90941637526290_2_alg».proof.Defs
import proofs.«167850_j90941637526290_2_alg».proof.Proof.Gen.Kernel
import proofs.«167850_j90941637526290_2_alg».proof.Proof.Gen.Kernel.Skeleton
import proofs.«167850_j90941637526290_2_alg».proof.Proof.Gen.Kernel.Launch
import proofs.«167850_j90941637526290_2_alg».proof.Proof.Gen.Kernel.Points
import proofs.«167850_j90941637526290_2_alg».proof.Proof.Gen.Kernel.Frame
import proofs.«167850_j90941637526290_2_alg».proof.Proof.Gen.KernelIdeal
import proofs.«167850_j90941637526290_2_alg».proof.Proof.Gen.KernelIdeal.Skeleton
import proofs.«167850_j90941637526290_2_alg».proof.Proof.Gen.KernelIdeal.Launch
import proofs.«167850_j90941637526290_2_alg».proof.Proof.Gen.KernelIdeal.Points
import proofs.«167850_j90941637526290_2_alg».proof.Proof.Gen.KernelIdeal.Frame
import proofs.«167850_j90941637526290_2_alg».proof.Proof.Gen.KernelIdeal.Value
import proofs.«167850_j90941637526290_2_alg».proof.Proof.Gen.ReferenceIdeal
import proofs.«167850_j90941637526290_2_alg».proof.Proof.Gen.Pre_finite_inputs
import proofs.«167850_j90941637526290_2_alg».proof.Proof.KernelArray
import proofs.«167850_j90941637526290_2_alg».proof.Proof.RefRowsB
import proofs.«167850_j90941637526290_2_alg».proof.Proof.RefRun
import proofs.«167850_j90941637526290_2_alg».proof.Proof.PreFinite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the twelve arguments, finite by the precondition, both programs end with the result array at
    `GateArray.result` of the arguments: the kernel block by block, the reference stage by stage with its attention weights
    equal to one. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11⟩ := hagree c
  rw [h0, h1, h2, h3, h4, h5, h6, h7, h8, h9, h10, h11]
  obtain ⟨r0, r1, r2, r3⟩ := Cert.Pre_finite_inputs.Finite.pre_real _ _ _ _ _ _ _ _ _ _ _ _ (hpre c)
  exact Cert.ReferenceIdeal.RefValue.result_eq _ _ _ _ _ _ _ _ _ _ _ _ r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
